-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x40, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x40, .f32⟩
  | .hbm, ⟨78, _⟩ => ⟨S3300000x1, .f32⟩
  | .hbm, ⟨79, _⟩ => ⟨S3300000x40, .f32⟩
  | .hbm, ⟨80, _⟩ => ⟨S3300000x40, .f32⟩
  | .hbm, ⟨81, _⟩ => ⟨S_, .f32⟩
  | .hbm, ⟨82, _⟩ => ⟨S100000x40, .f32⟩
  | .hbm, ⟨83, _⟩ => ⟨S3300000x1, .i32⟩
  | .hbm, ⟨84, _⟩ => ⟨S100000x40, .f32⟩
  | .hbm, ⟨85, _⟩ => ⟨S1x40, .f32⟩
  | .hbm, ⟨86, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x40, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x40, .f32⟩
  | .hbm, ⟨82, _⟩ => ⟨S3300000x1, .f32⟩
  | .hbm, ⟨83, _⟩ => ⟨S3300000x40, .f32⟩
  | .hbm, ⟨84, _⟩ => ⟨S3300000x40, .f32⟩
  | .hbm, ⟨85, _⟩ => ⟨S_, .f32⟩
  | .hbm, ⟨86, _⟩ => ⟨S100000x40, .f32⟩
  | .hbm, ⟨87, _⟩ => ⟨S3300000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel program's run with every buffer's final contents named.

  The program is a chain of nine segments: stretches of host operations and four pipelined kernel regions. The contents of
  the TensorCore's buffers at each segment boundary are a fold from the launch memory (a host stretch applies its operations,
  a region replaces its arrays by what its write-backs leave), and the last boundary's contents are `W9`. The theorem here
  says that every weakly fair execution terminates without a fault in a state whose every unscoped buffer holds its `W9`
  contents — in particular the result buffer, whose `W9` contents the other modules compute.
-/
import proofs.«171927_j27865747816552_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at the
    last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run read at the result buffer and at the seven arguments: the result at its last-boundary contents, the
    arguments as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)
    (run_all m ρ)

end Cert.KernelIdeal.Whole

end
-- ==== Proof.Layers.lean ====
/-
  The dense layers of the two-layer graph convolution as whole-array functions on the extended reals, spelt with the
  host's operations, and the log-softmax of one row of forty entries as a closed formula.

  * `biasRelu a b`       : every row of `a` (100000 × 16) plus the one row `b` (1 × 16), clipped below at zero.
  * `project40 h w`      : the matrix product of `h` (100000 × 16) with `w` (16 × 40).
  * `biasLogSoftmax z b` : every row of `z` (100000 × 40) plus the one row `b`, then the row's log-softmax:
                           the row minus its maximum, minus the logarithm of the sum of the exponentials of that difference.
  * `lsmRow row q`       : entry `q` of the log-softmax of one row, the maximum taken as a fold of `max` from `⊥`.
-/
import proofs.«171927_j27865747816552_1_alg».proof.Proof.Gen.ReferenceIdeal
import Idealize.ShloMosaic.PureOps.Ideal
import Idealize.ShloMosaic.Lib.ValueIdx

noncomputable section

namespace Cert.Gcn

open Idealize.ShloMosaic Cert.ReferenceIdeal Cert.ReferenceIdeal.Gen

/-- The maximum of a row of forty extended reals, as the fold of `max` from `⊥`. -/
def rowMax (row : Fin 40 → EReal) : EReal := (Finset.univ : Finset (Fin 40)).fold max ⊥ row

/-- Entry `q` of the log-softmax of one row: `(row q − M) − log (∑ₖ exp (row k − M))` with `M` the row's maximum. -/
def lsmRow (row : Fin 40 → EReal) (q : Fin 40) : EReal :=
  (row q - rowMax row) - Ideal.log (∑ k : Fin 40, Ideal.exp (row k - rowMax row))

/-- A 100000 × 16 array plus a bias row, clipped below at zero. -/
def biasRelu (a : FVec Ideal S100000x16 .f32) (b : FVec Ideal S1x16 .f32) : FVec Ideal S100000x16 .f32 :=
  maximumf (addf a (broadcastInDim S100000x16 ![0, 1] bcast_S1x16_S100000x16_0_1 b))
    (broadcastInDim S100000x16 ![] bcast_S_S100000x16 (constant (F := Ideal) S_ .f32 0x00000000#32))

/-- The product of a 100000 × 16 array with a 16 × 40 matrix. -/
def project40 (h : FVec Ideal S100000x16 .f32) (w : FVec Ideal S16x40 .f32) : FVec Ideal S100000x40 .f32 :=
  Host.dotGeneral dot_S100000x16_S16x40_S100000x40_1_0_0_1_n_n none h w

/-- Each row minus its maximum (the maximum of the row's fold from `−∞` and of `−∞` again, as the host spells it). -/
def shiftByRowMax (y : FVec Ideal S100000x40 .f32) : FVec Ideal S100000x40 .f32 :=
  subf y (broadcastInDim S100000x40 ![0, 1] bcast_S100000x1_S100000x40_0_1
    (broadcastInDim S100000x1 ![0] bcast_S100000_S100000x1_0
      (maximumf (broadcastInDim S100000 ![] bcast_S_S100000 (constant (F := Ideal) S_ .f32 0xFF800000#32))
        (Host.reduce FloatOps.maximumf y (constant (F := Ideal) S_ .f32 0xFF800000#32) reducesTo_S100000x40_S100000_d1 h_S_))))

/-- The row-wise log-softmax of a 100000 × 40 array. -/
def logSoftmax (y : FVec Ideal S100000x40 .f32) : FVec Ideal S100000x40 .f32 :=
  subf (shiftByRowMax y) (broadcastInDim S100000x40 ![0, 1] bcast_S100000x1_S100000x40_0_1
    (Host.log (broadcastInDim S100000x1 ![0] bcast_S100000_S100000x1_0
      (Host.reduceAdd (Host.exp (shiftByRowMax y)) (constant (F := Ideal) S_ .f32 0x00000000#32) reducesTo_S100000x40_S100000_d1 h_S_))))

/-- A 100000 × 40 array plus a bias row, then the row-wise log-softmax. -/
def biasLogSoftmax (z : FVec Ideal S100000x40 .f32) (b : FVec Ideal S1x40 .f32) : FVec Ideal S100000x40 .f32 :=
  logSoftmax (addf z (broadcastInDim S100000x40 ![0, 1] bcast_S1x40_S100000x40_0_1 b))

end Cert.Gcn

end
-- ==== Proof.MatmulAt.lean ====
/-
  Matrix products read at an index, on the extended reals.

  A kernel block's `matmul` into a zero accumulator and the host's `dot_general` are both, at output index (p, q), the sum over
  the contracted coordinate `k` of the left operand at (p, k) times the right operand at (k, q): no rounding, no schedule, and the
  narrowing of the operands to a shorter float format is the identity. Stated for the two block products the kernels compute
  (5000 × 512 by 512 × 16, 5000 × 16 by 16 × 40) and the two whole-array products the reference computes (100000 rows).
-/
import proofs.«171927_j27865747816552_1_alg».proof.Proof.Gen.KernelIdeal.Skeleton
import proofs.«171927_j27865747816552_1_alg».proof.Proof.Layers
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

section kdot1
open Cert.KernelIdeal Cert.KernelIdeal.Gen

private theorem kdot1_l0 (i : Cert.KernelIdeal.S5000x16.Idx) (q : Cert.KernelIdeal.dot_S5000x512_S512x16_S5000x16_1_0_0_1_n_n.contr.Idx) : (Cert.KernelIdeal.dot_S5000x512_S512x16_S5000x16_1_0_0_1_n_n.lhsIdx i q 0).val = (i 0).val := by
  unfold DotDims.lhsIdx
  rw [dif_neg (show ¬(0 : Fin Cert.KernelIdeal.S5000x512.rank) ∈ Cert.KernelIdeal.dot_S5000x512_S512x16_S5000x16_1_0_0_1_n_n.lhsBatch by decide), dif_pos (show (0 : Fin Cert.KernelIdeal.S5000x512.rank) ∈ Cert.KernelIdeal.dot_S5000x512_S512x16_S5000x16_1_0_0_1_n_n.lhsNonContracting by decide)]
  rfl
private theorem kdot1_l1 (i : Cert.KernelIdeal.S5000x16.Idx) (q : Cert.KernelIdeal.dot_S5000x512_S512x16_S5000x16_1_0_0_1_n_n.contr.Idx) : (Cert.KernelIdeal.dot_S5000x512_S512x16_S5000x16_1_0_0_1_n_n.lhsIdx i q 1).val = (q ⟨0, by decide⟩).val :=
  Cert.KernelIdeal.dot_S5000x512_S512x16_S5000x16_1_0_0_1_n_n.lhsIdx_val_of_single rfl i q
private theorem kdot1_r0 (i : Cert.KernelIdeal.S5000x16.Idx) (q : Cert.KernelIdeal.dot_S5000x512_S512x16_S5000x16_1_0_0_1_n_n.contr.Idx) : (Cert.KernelIdeal.dot_S5000x512_S512x16_S5000x16_1_0_0_1_n_n.rhsIdx i q 0).val = (q ⟨0, by decide⟩).val :=
  Cert.KernelIdeal.dot_S5000x512_S512x16_S5000x16_1_0_0_1_n_n.rhsIdx_val_of_single rfl i q
private theorem kdot1_r1 (i : Cert.KernelIdeal.S5000x16.Idx) (q : Cert.KernelIdeal.dot_S5000x512_S512x16_S5000x16_1_0_0_1_n_n.contr.Idx) : (Cert.KernelIdeal.dot_S5000x512_S512x16_S5000x16_1_0_0_1_n_n.rhsIdx i q 1).val = (i 1).val := by
  unfold DotDims.rhsIdx
  rw [dif_neg (show ¬(1 : Fin Cert.KernelIdeal.S512x16.rank) ∈ Cert.KernelIdeal.dot_S5000x512_S512x16_S5000x16_1_0_0_1_n_n.rhsBatch by decide), dif_pos (show (1 : Fin Cert.KernelIdeal.S512x16.rank) ∈ Cert.KernelIdeal.dot_S5000x512_S512x16_S5000x16_1_0_0_1_n_n.rhsNonContracting by decide)]
  rfl

/-- The contraction sum of these dimension numbers at output index (p, q), re-indexed by the one contracted coordinate:
    row `p` of the left operand against column `q` of the right. -/
theorem kdot1_sum (l : Cert.KernelIdeal.S5000x512.Idx → EReal) (r : Cert.KernelIdeal.S512x16.Idx → EReal) (p : Fin 5000) (q : Fin 16) :
    (∑ k : Cert.KernelIdeal.dot_S5000x512_S512x16_S5000x16_1_0_0_1_n_n.contr.Idx, l (Cert.KernelIdeal.dot_S5000x512_S512x16_S5000x16_1_0_0_1_n_n.lhsIdx (ix2 p q) k) * r (Cert.KernelIdeal.dot_S5000x512_S512x16_S5000x16_1_0_0_1_n_n.rhsIdx (ix2 p q) k))
      = ∑ k : Fin 512, l (ix2 p k) * r (ix2 k q) := by
  rw [← Equiv.sum_comp (contrEquiv1 Cert.KernelIdeal.dot_S5000x512_S512x16_S5000x16_1_0_0_1_n_n 512 rfl rfl).symm]
  refine Finset.sum_congr rfl fun k _ => ?_
  have hk := contrEquiv1_symm_val Cert.KernelIdeal.dot_S5000x512_S512x16_S5000x16_1_0_0_1_n_n 512 rfl rfl k
  have el : Cert.KernelIdeal.dot_S5000x512_S512x16_S5000x16_1_0_0_1_n_n.lhsIdx (ix2 p q) ((contrEquiv1 Cert.KernelIdeal.dot_S5000x512_S512x16_S5000x16_1_0_0_1_n_n 512 rfl rfl).symm k) = ix2 p k := funext fun a => Fin.ext (by
    match a with
    | ⟨0, _⟩ => exact kdot1_l0 _ _
    | ⟨1, _⟩ => exact (kdot1_l1 _ _).trans hk)
  have er : Cert.KernelIdeal.dot_S5000x512_S512x16_S5000x16_1_0_0_1_n_n.rhsIdx (ix2 p q) ((contrEquiv1 Cert.KernelIdeal.dot_S5000x512_S512x16_S5000x16_1_0_0_1_n_n 512 rfl rfl).symm k) = ix2 k q := funext fun a => Fin.ext (by
    match a with
    | ⟨0, _⟩ => exact (kdot1_r0 _ _).trans hk
    | ⟨1, _⟩ => exact kdot1_r1 _ _)
  rw [el, er]

end kdot1

section kdot2
open Cert.KernelIdeal Cert.KernelIdeal.Gen

private theorem kdot2_l0 (i : Cert.KernelIdeal.S5000x40.Idx) (q : Cert.KernelIdeal.dot_S5000x16_S16x40_S5000x40_1_0_0_1_n_n.contr.Idx) : (Cert.KernelIdeal.dot_S5000x16_S16x40_S5000x40_1_0_0_1_n_n.lhsIdx i q 0).val = (i 0).val := by
  unfold DotDims.lhsIdx
  rw [dif_neg (show ¬(0 : Fin Cert.KernelIdeal.S5000x16.rank) ∈ Cert.KernelIdeal.dot_S5000x16_S16x40_S5000x40_1_0_0_1_n_n.lhsBatch by decide), dif_pos (show (0 : Fin Cert.KernelIdeal.S5000x16.rank) ∈ Cert.KernelIdeal.dot_S5000x16_S16x40_S5000x40_1_0_0_1_n_n.lhsNonContracting by decide)]
  rfl
private theorem kdot2_l1 (i : Cert.KernelIdeal.S5000x40.Idx) (q : Cert.KernelIdeal.dot_S5000x16_S16x40_S5000x40_1_0_0_1_n_n.contr.Idx) : (Cert.KernelIdeal.dot_S5000x16_S16x40_S5000x40_1_0_0_1_n_n.lhsIdx i q 1).val = (q ⟨0, by decide⟩).val :=
  Cert.KernelIdeal.dot_S5000x16_S16x40_S5000x40_1_0_0_1_n_n.lhsIdx_val_of_single rfl i q
private theorem kdot2_r0 (i : Cert.KernelIdeal.S5000x40.Idx) (q : Cert.KernelIdeal.dot_S5000x16_S16x40_S5000x40_1_0_0_1_n_n.contr.Idx) : (Cert.KernelIdeal.dot_S5000x16_S16x40_S5000x40_1_0_0_1_n_n.rhsIdx i q 0).val = (q ⟨0, by decide⟩).val :=
  Cert.KernelIdeal.dot_S5000x16_S16x40_S5000x40_1_0_0_1_n_n.rhsIdx_val_of_single rfl i q
private theorem kdot2_r1 (i : Cert.KernelIdeal.S5000x40.Idx) (q : Cert.KernelIdeal.dot_S5000x16_S16x40_S5000x40_1_0_0_1_n_n.contr.Idx) : (Cert.KernelIdeal.dot_S5000x16_S16x40_S5000x40_1_0_0_1_n_n.rhsIdx i q 1).val = (i 1).val := by
  unfold DotDims.rhsIdx
  rw [dif_neg (show ¬(1 : Fin Cert.KernelIdeal.S16x40.rank) ∈ Cert.KernelIdeal.dot_S5000x16_S16x40_S5000x40_1_0_0_1_n_n.rhsBatch by decide), dif_pos (show (1 : Fin Cert.KernelIdeal.S16x40.rank) ∈ Cert.KernelIdeal.dot_S5000x16_S16x40_S5000x40_1_0_0_1_n_n.rhsNonContracting by decide)]
  rfl

/-- The contraction sum of these dimension numbers at output index (p, q), re-indexed by the one contracted coordinate:
    row `p` of the left operand against column `q` of the right. -/
theorem kdot2_sum (l : Cert.KernelIdeal.S5000x16.Idx → EReal) (r : Cert.KernelIdeal.S16x40.Idx → EReal) (p : Fin 5000) (q : Fin 40) :
    (∑ k : Cert.KernelIdeal.dot_S5000x16_S16x40_S5000x40_1_0_0_1_n_n.contr.Idx, l (Cert.KernelIdeal.dot_S5000x16_S16x40_S5000x40_1_0_0_1_n_n.lhsIdx (ix2 p q) k) * r (Cert.KernelIdeal.dot_S5000x16_S16x40_S5000x40_1_0_0_1_n_n.rhsIdx (ix2 p q) k))
      = ∑ k : Fin 16, l (ix2 p k) * r (ix2 k q) := by
  rw [← Equiv.sum_comp (contrEquiv1 Cert.KernelIdeal.dot_S5000x16_S16x40_S5000x40_1_0_0_1_n_n 16 rfl rfl).symm]
  refine Finset.sum_congr rfl fun k _ => ?_
  have hk := contrEquiv1_symm_val Cert.KernelIdeal.dot_S5000x16_S16x40_S5000x40_1_0_0_1_n_n 16 rfl rfl k
  have el : Cert.KernelIdeal.dot_S5000x16_S16x40_S5000x40_1_0_0_1_n_n.lhsIdx (ix2 p q) ((contrEquiv1 Cert.KernelIdeal.dot_S5000x16_S16x40_S5000x40_1_0_0_1_n_n 16 rfl rfl).symm k) = ix2 p k := funext fun a => Fin.ext (by
    match a with
    | ⟨0, _⟩ => exact kdot2_l0 _ _
    | ⟨1, _⟩ => exact (kdot2_l1 _ _).trans hk)
  have er : Cert.KernelIdeal.dot_S5000x16_S16x40_S5000x40_1_0_0_1_n_n.rhsIdx (ix2 p q) ((contrEquiv1 Cert.KernelIdeal.dot_S5000x16_S16x40_S5000x40_1_0_0_1_n_n 16 rfl rfl).symm k) = ix2 k q := funext fun a => Fin.ext (by
    match a with
    | ⟨0, _⟩ => exact (kdot2_r0 _ _).trans hk
    | ⟨1, _⟩ => exact kdot2_r1 _ _)
  rw [el, er]

end kdot2

section rdot1
open Cert.ReferenceIdeal Cert.ReferenceIdeal.Gen

private theorem rdot1_l0 (i : Cert.ReferenceIdeal.S100000x16.Idx) (q : Cert.ReferenceIdeal.dot_S100000x512_S512x16_S100000x16_1_0_0_1_n_n.contr.Idx) : (Cert.ReferenceIdeal.dot_S100000x512_S512x16_S100000x16_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x16_S100000x16_1_0_0_1_n_n.lhsBatch by decide), dif_pos (show (0 : Fin Cert.ReferenceIdeal.S100000x512.rank) ∈ Cert.ReferenceIdeal.dot_S100000x512_S512x16_S100000x16_1_0_0_1_n_n.lhsNonContracting by decide)]
  rfl
private theorem rdot1_l1 (i : Cert.ReferenceIdeal.S100000x16.Idx) (q : Cert.ReferenceIdeal.dot_S100000x512_S512x16_S100000x16_1_0_0_1_n_n.contr.Idx) : (Cert.ReferenceIdeal.dot_S100000x512_S512x16_S100000x16_1_0_0_1_n_n.lhsIdx i q 1).val = (q ⟨0, by decide⟩).val :=
  Cert.ReferenceIdeal.dot_S100000x512_S512x16_S100000x16_1_0_0_1_n_n.lhsIdx_val_of_single rfl i q
private theorem rdot1_r0 (i : Cert.ReferenceIdeal.S100000x16.Idx) (q : Cert.ReferenceIdeal.dot_S100000x512_S512x16_S100000x16_1_0_0_1_n_n.contr.Idx) : (Cert.ReferenceIdeal.dot_S100000x512_S512x16_S100000x16_1_0_0_1_n_n.rhsIdx i q 0).val = (q ⟨0, by decide⟩).val :=
  Cert.ReferenceIdeal.dot_S100000x512_S512x16_S100000x16_1_0_0_1_n_n.rhsIdx_val_of_single rfl i q
private theorem rdot1_r1 (i : Cert.ReferenceIdeal.S100000x16.Idx) (q : Cert.ReferenceIdeal.dot_S100000x512_S512x16_S100000x16_1_0_0_1_n_n.contr.Idx) : (Cert.ReferenceIdeal.dot_S100000x512_S512x16_S100000x16_1_0_0_1_n_n.rhsIdx i q 1).val = (i 1).val := by
  unfold DotDims.rhsIdx
  rw [dif_neg (show ¬(1 : Fin Cert.ReferenceIdeal.S512x16.rank) ∈ Cert.ReferenceIdeal.dot_S100000x512_S512x16_S100000x16_1_0_0_1_n_n.rhsBatch by decide), dif_pos (show (1 : Fin Cert.ReferenceIdeal.S512x16.rank) ∈ Cert.ReferenceIdeal.dot_S100000x512_S512x16_S100000x16_1_0_0_1_n_n.rhsNonContracting by decide)]
  rfl

/-- The contraction sum of these dimension numbers at output index (p, q), re-indexed by the one contracted coordinate:
    row `p` of the left operand against column `q` of the right. -/
theorem rdot1_sum (l : Cert.ReferenceIdeal.S100000x512.Idx → EReal) (r : Cert.ReferenceIdeal.S512x16.Idx → EReal) (p : Fin 100000) (q : Fin 16) :
    (∑ k : Cert.ReferenceIdeal.dot_S100000x512_S512x16_S100000x16_1_0_0_1_n_n.contr.Idx, l (Cert.ReferenceIdeal.dot_S100000x512_S512x16_S100000x16_1_0_0_1_n_n.lhsIdx (ix2 p q) k) * r (Cert.ReferenceIdeal.dot_S100000x512_S512x16_S100000x16_1_0_0_1_n_n.rhsIdx (ix2 p q) k))
      = ∑ k : Fin 512, l (ix2 p k) * r (ix2 k q) := by
  rw [← Equiv.sum_comp (contrEquiv1 Cert.ReferenceIdeal.dot_S100000x512_S512x16_S100000x16_1_0_0_1_n_n 512 rfl rfl).symm]
  refine Finset.sum_congr rfl fun k _ => ?_
  have hk := contrEquiv1_symm_val Cert.ReferenceIdeal.dot_S100000x512_S512x16_S100000x16_1_0_0_1_n_n 512 rfl rfl k
  have el : Cert.ReferenceIdeal.dot_S100000x512_S512x16_S100000x16_1_0_0_1_n_n.lhsIdx (ix2 p q) ((contrEquiv1 Cert.ReferenceIdeal.dot_S100000x512_S512x16_S100000x16_1_0_0_1_n_n 512 rfl rfl).symm k) = ix2 p k := funext fun a => Fin.ext (by
    match a with
    | ⟨0, _⟩ => exact rdot1_l0 _ _
    | ⟨1, _⟩ => exact (rdot1_l1 _ _).trans hk)
  have er : Cert.ReferenceIdeal.dot_S100000x512_S512x16_S100000x16_1_0_0_1_n_n.rhsIdx (ix2 p q) ((contrEquiv1 Cert.ReferenceIdeal.dot_S100000x512_S512x16_S100000x16_1_0_0_1_n_n 512 rfl rfl).symm k) = ix2 k q := funext fun a => Fin.ext (by
    match a with
    | ⟨0, _⟩ => exact (rdot1_r0 _ _).trans hk
    | ⟨1, _⟩ => exact rdot1_r1 _ _)
  rw [el, er]

end rdot1

section rdot2
open Cert.ReferenceIdeal Cert.ReferenceIdeal.Gen

private theorem rdot2_l0 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x40_S100000x40_1_0_0_1_n_n.lhsBatch by decide), dif_pos (show (0 : Fin Cert.ReferenceIdeal.S100000x16.rank) ∈ Cert.ReferenceIdeal.dot_S100000x16_S16x40_S100000x40_1_0_0_1_n_n.lhsNonContracting by decide)]
  rfl
private theorem rdot2_l1 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.lhsIdx i q 1).val = (q ⟨0, by decide⟩).val :=
  Cert.ReferenceIdeal.dot_S100000x16_S16x40_S100000x40_1_0_0_1_n_n.lhsIdx_val_of_single rfl i q
private theorem rdot2_r0 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.rhsIdx i q 0).val = (q ⟨0, by decide⟩).val :=
  Cert.ReferenceIdeal.dot_S100000x16_S16x40_S100000x40_1_0_0_1_n_n.rhsIdx_val_of_single rfl i q
private theorem rdot2_r1 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.rhsIdx i q 1).val = (i 1).val := by
  unfold DotDims.rhsIdx
  rw [dif_neg (show ¬(1 : Fin Cert.ReferenceIdeal.S16x40.rank) ∈ Cert.ReferenceIdeal.dot_S100000x16_S16x40_S100000x40_1_0_0_1_n_n.rhsBatch by decide), dif_pos (show (1 : Fin Cert.ReferenceIdeal.S16x40.rank) ∈ Cert.ReferenceIdeal.dot_S100000x16_S16x40_S100000x40_1_0_0_1_n_n.rhsNonContracting by decide)]
  rfl

/-- The contraction sum of these dimension numbers at output index (p, q), re-indexed by the one contracted coordinate:
    row `p` of the left operand against column `q` of the right. -/
theorem rdot2_sum (l : Cert.ReferenceIdeal.S100000x16.Idx → EReal) (r : Cert.ReferenceIdeal.S16x40.Idx → EReal) (p : Fin 100000) (q : Fin 40) :
    (∑ k : Cert.ReferenceIdeal.dot_S100000x16_S16x40_S100000x40_1_0_0_1_n_n.contr.Idx, l (Cert.ReferenceIdeal.dot_S100000x16_S16x40_S100000x40_1_0_0_1_n_n.lhsIdx (ix2 p q) k) * r (Cert.ReferenceIdeal.dot_S100000x16_S16x40_S100000x40_1_0_0_1_n_n.rhsIdx (ix2 p q) k))
      = ∑ k : Fin 16, l (ix2 p k) * r (ix2 k q) := by
  rw [← Equiv.sum_comp (contrEquiv1 Cert.ReferenceIdeal.dot_S100000x16_S16x40_S100000x40_1_0_0_1_n_n 16 rfl rfl).symm]
  refine Finset.sum_congr rfl fun k _ => ?_
  have hk := contrEquiv1_symm_val Cert.ReferenceIdeal.dot_S100000x16_S16x40_S100000x40_1_0_0_1_n_n 16 rfl rfl k
  have el : Cert.ReferenceIdeal.dot_S100000x16_S16x40_S100000x40_1_0_0_1_n_n.lhsIdx (ix2 p q) ((contrEquiv1 Cert.ReferenceIdeal.dot_S100000x16_S16x40_S100000x40_1_0_0_1_n_n 16 rfl rfl).symm k) = ix2 p k := funext fun a => Fin.ext (by
    match a with
    | ⟨0, _⟩ => exact rdot2_l0 _ _
    | ⟨1, _⟩ => exact (rdot2_l1 _ _).trans hk)
  have er : Cert.ReferenceIdeal.dot_S100000x16_S16x40_S100000x40_1_0_0_1_n_n.rhsIdx (ix2 p q) ((contrEquiv1 Cert.ReferenceIdeal.dot_S100000x16_S16x40_S100000x40_1_0_0_1_n_n 16 rfl rfl).symm k) = ix2 k q := funext fun a => Fin.ext (by
    match a with
    | ⟨0, _⟩ => exact (rdot2_r0 _ _).trans hk
    | ⟨1, _⟩ => exact rdot2_r1 _ _)
  rw [el, er]

end rdot2

/-- The first layer's projection: the product of a 100000 × 512 array with a 512 × 16 matrix. -/
def project16 (x : FVec Ideal Cert.ReferenceIdeal.S100000x512 .f32) (w : FVec Ideal Cert.ReferenceIdeal.S512x16 .f32) : FVec Ideal Cert.ReferenceIdeal.S100000x16 .f32 :=
  Host.dotGeneral Cert.ReferenceIdeal.dot_S100000x512_S512x16_S100000x16_1_0_0_1_n_n none x w

/-- The first kernel's block product at (p, q). -/
theorem k0_at (x0 : FVec Ideal Cert.KernelIdeal.S5000x512 .f32) (x1 : FVec Ideal Cert.KernelIdeal.S512x16 .f32) (p : Fin 5000) (q : Fin 16) :
    Cert.KernelIdeal.Gen.k0_pay1 (F := Ideal) x0 x1 (ix2 p q) = ∑ k : Fin 512, x0 (ix2 p k) * x1 (ix2 k q) := by
  unfold Cert.KernelIdeal.Gen.k0_pay1
  refine (Ideal.matmul_constant_zero_apply Cert.KernelIdeal.dot_S5000x512_S512x16_S5000x16_1_0_0_1_n_n none _ _ (ix2 p q)).trans ?_
  exact kdot1_sum x0 x1 p q

/-- The third kernel's block product at (p, q). -/
theorem k2_at (x0 : FVec Ideal Cert.KernelIdeal.S5000x16 .f32) (x1 : FVec Ideal Cert.KernelIdeal.S16x40 .f32) (p : Fin 5000) (q : Fin 40) :
    Cert.KernelIdeal.Gen.k2_pay1 (F := Ideal) x0 x1 (ix2 p q) = ∑ k : Fin 16, x0 (ix2 p k) * x1 (ix2 k q) := by
  unfold Cert.KernelIdeal.Gen.k2_pay1
  rw [shapeCast_self]
  refine (Ideal.matmul_constant_zero_apply Cert.KernelIdeal.dot_S5000x16_S16x40_S5000x40_1_0_0_1_n_n none _ _ (ix2 p q)).trans ?_
  exact kdot2_sum x0 x1 p q

/-- The reference's first product at (r, q). -/
theorem project16_at (x : FVec Ideal Cert.ReferenceIdeal.S100000x512 .f32) (w : FVec Ideal Cert.ReferenceIdeal.S512x16 .f32) (r : Fin 100000) (q : Fin 16) :
    project16 x w (ix2 r q) = ∑ k : Fin 512, x (ix2 r k) * w (ix2 k q) := by
  unfold project16
  refine (Ideal.dotGeneral_apply Cert.ReferenceIdeal.dot_S100000x512_S512x16_S100000x16_1_0_0_1_n_n none _ x w (ix2 r q)).trans ?_
  exact rdot1_sum x w r q

/-- The reference's second product at (r, q). -/
theorem project40_at (h : FVec Ideal Cert.ReferenceIdeal.S100000x16 .f32) (w : FVec Ideal Cert.ReferenceIdeal.S16x40 .f32) (r : Fin 100000) (q : Fin 40) :
    project40 h w (ix2 r q) = ∑ k : Fin 16, h (ix2 r k) * w (ix2 k q) := by
  unfold project40
  refine (Ideal.dotGeneral_apply Cert.ReferenceIdeal.dot_S100000x16_S16x40_S100000x40_1_0_0_1_n_n none _ h w (ix2 r q)).trans ?_
  exact rdot2_sum h w r q

end Cert.Gcn

end
-- ==== Proof.Region0.lean ====
/-
  The first kernel region's result array: the first layer's projection.

  The region's grid has twenty points; point `t` stages rows 5000·t … 5000·t + 4999 of its first operand and the whole of its
  second, and writes back rows 5000·t … 5000·t + 4999 of the result. The block written back is the product of the staged rows with the staged 512 × 16 matrix, which at (p, q) is the sum over k of the operands' products, as is the whole-array product at (5000·t + p, q).
  Since the twenty row blocks tile the 100000 rows, the result array after the region is that function of the two operand
  arrays as the region found them, whatever they are.
-/
import proofs.«171927_j27865747816552_1_alg».proof.Proof.Gen.KernelIdeal.Frame
import proofs.«171927_j27865747816552_1_alg».proof.Proof.MatmulAt
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz_0 : (![0, 0] : Fin 2 → Nat) = fun _ => 0 := funext fun a => by fin_cases a <;> rfl

/-- The printed index maps over the grid: the first operand's and the result's blocks move down the rows with the point, the
    second operand's block stays at the origin. -/
theorem idx_0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- Entry (p, k) of the first operand's block at point `t` is entry (5000·t + p, k) of its array. -/
theorem rows_0 (c : Dev nD) (t : Fin cfg0.N) (p : Fin 5000) (k : Fin 512) (r : Fin 100000) (hr : r.val = 5000 * t.val + p.val) :
    (iblk0 V c 0 t : Vec Ideal S5000x512 .f32) (ix2 p k) = (V c main_arg0 : S100000x512.Idx → EReal) (ix2 r k) := by
  obtain ⟨e0, e1, -⟩ := idx_0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 512 + 1 * k.val = k.val; omega

/-- The second operand's block at any point is its whole array. -/
theorem whole_0 (c : Dev nD) (t : Fin cfg0.N) (a : Fin 512) (b : Fin 16) :
    (iblk0 V c 1 t : Vec Ideal S512x16 .f32) (ix2 a b) = (V c main_arg3 : S512x16.Idx → EReal) (ix2 a b) := by
  obtain ⟨-, -, e2, e3, -⟩ := idx_0 t
  unfold iblk0
  rw [View.read_apply]
  show V c main_arg3 _ = V c main_arg3 _
  congr 1
  funext d
  apply Fin.ext
  match d with
  | ⟨0, _⟩ => show win0_1.index t (0 : Fin 2) * 512 + 1 * a.val = a.val; omega
  | ⟨1, _⟩ => show win0_1.index t (1 : Fin 2) * 16 + 1 * b.val = b.val; omega

/-- Entry (p, q) of the result's block at point `t` sits at (5000·t + p, q) of the result array. -/
theorem out_0 (t : Fin cfg0.N) (p : Fin 5000) (q : Fin 16) (r : Fin 100000) (hr : r.val = 5000 * t.val + p.val) :
    (((cfg0.win 2).blk t).view.emb (ix2 p q) : S100000x16.Idx) = ix2 r q := by
  obtain ⟨-, -, -, -, e4, e5⟩ := idx_0 t
  funext a
  apply Fin.ext
  match a with
  | ⟨0, _⟩ => show win0_2.index t (0 : Fin 2) * 5000 + 1 * p.val = r.val; omega
  | ⟨1, _⟩ => show win0_2.index t (1 : Fin 2) * 16 + 1 * q.val = q.val; omega

/-- What point `t` writes back is block `t` of the whole-array function of the operand arrays. -/
theorem flushed_0 (c : Dev nD) (t : Fin cfg0.N) :
    (dat0 V c).flushed 2 t = ((cfg0.win 2).blk t).view.read (Elt Ideal) (Cert.Gcn.project16 (V c main_arg0) (V c main_arg3)) := by
  show (cfg0.win 2).cut (grid0.coords t) ((dat0 V c).after 2 t) = _
  rw [after0_2]
  unfold out0_2
  rw [View.canon_unit_zero hz_0]
  simp only [View.ld_unit_zero (S := S5000x512) hz_0, View.ld_unit_zero (S := S512x16) hz_0]
  refine funext fun (y : S5000x16.Idx) => ?_
  obtain ⟨p, q, rfl⟩ : ∃ (p : Fin 5000) (q : Fin 16), y = ix2 p q := ⟨y 0, y 1, eq_ix2 y⟩
  have hN : cfg0.N = 20 := N_0
  have ht : t.val < 20 := hN ▸ t.isLt
  have hr : 5000 * t.val + p.val < 100000 := by have := p.isLt; omega
  show k0_pay1 (iblk0 V c 0 t) (iblk0 V c 1 t) (ix2 p q)
    = Cert.Gcn.project16 (V c main_arg0) (V c main_arg3) (((cfg0.win 2).blk t).view.emb (ix2 p q))
  rw [out_0 t p q ⟨_, hr⟩ rfl]
  refine (Cert.Gcn.k0_at _ _ p q).trans ?_
  refine Eq.trans ?_ (Cert.Gcn.project16_at _ _ ⟨_, hr⟩ q).symm
  refine Finset.sum_congr rfl fun j _ => ?_
  rw [rows_0 V c t p j ⟨_, hr⟩ rfl, whole_0 V c t j q]

/-- An index of the result array is in point `t`'s block iff each coordinate is in the block's range on its axis. -/
theorem mem_0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- Every row of the result lies in the block of the point that is the row's number divided by 5000. -/
theorem cover_0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have hlt : (i 0).val / 5000 < cfg0.N := by rw [hN]; omega
  refine ⟨⟨(i 0).val / 5000, hlt⟩, flush0_2 _, ?_⟩
  rw [mem_0]
  obtain ⟨-, -, -, -, e4, e5⟩ := idx_0 ⟨(i 0).val / 5000, hlt⟩
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 16 ≤ (i 1).val ∧ (i 1).val < win0_2.index ⟨(i 0).val / 5000, hlt⟩ (1 : Fin 2) * 16 + 16
    rw [e5]
    omega

/-- The result array after the region: the whole-array function of the operand arrays as the region found them. -/
theorem final_0 (c : Dev nD) :
    (dat0 V c).arrAt 2 cfg0.N = Cert.Gcn.project16 (V c main_arg0) (V c main_arg3) :=
  (dat0 V c).arrAt_eq_of_cover 2 _ (fun t _ => flushed_0 V c t) cover_0

end Cert.KernelIdeal.Whole

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.PointwiseAt.lean ====
/-
  The two pointwise regions of the two-layer graph convolution, read at an index.

  The kernel's written-back blocks (bias plus clip at zero on a 5000 × 16 block; bias plus row-wise log-softmax on a
  5000 × 40 block) and the reference's whole-array functions (the same on 100000 rows) are each read at an index
  (row, column) and land on one closed formula over the extended reals:

  * bias and clip:         `max (a (r, q) + b (0, q)) 0`;
  * bias and log-softmax:  `lsmRow (fun k => z (r, k) + b (0, k)) q`, entry `q` of the log-softmax of the biased row.
-/
import proofs.«171927_j27865747816552_1_alg».proof.Proof.Gen.KernelIdeal.Skeleton
import proofs.«171927_j27865747816552_1_alg».proof.Proof.Layers
import proofs.«171927_j27865747816552_1_alg».proof.Proof.LibKeepdims
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
noncomputable section
namespace Cert.Gcn
open Idealize.ShloMosaic Idealize.ShloMosaic.ValueIdx

/-- The kernel's bias-and-clip block at (p, q): the entry plus the bias row's entry in that column, clipped below at zero. -/
theorem k1_at (x0 : FVec Ideal Cert.KernelIdeal.S5000x16 .f32) (x1 : FVec Ideal Cert.KernelIdeal.S1x16 .f32) (p : Fin 5000) (q : Fin 16) :
    Cert.KernelIdeal.Gen.k1_pay1 (F := Ideal) x0 x1 (ix2 p q) = max (x0 (ix2 p q) + x1 (ix2 (0 : Fin 1) q)) 0 := by
  unfold Cert.KernelIdeal.Gen.k1_pay1
  show max (shapeCast _ x0 _ (ix2 p q) + broadcastTo _ (shapeCast _ x1 _) _ (ix2 p q)) (Ideal.ofBits .f32 0x00000000#32) = _
  rw [shapeCast_self, shapeCast_self, broadcastTo_1b_ab_apply, Ideal.ofBits_zero_f32]

/-- The reference's bias-and-clip array at (r, q): the same formula on the whole array's row `r`. -/
theorem biasRelu_at (a : FVec Ideal Cert.ReferenceIdeal.S100000x16 .f32) (b : FVec Ideal Cert.ReferenceIdeal.S1x16 .f32) (r : Fin 100000) (q : Fin 16) :
    biasRelu a b (ix2 r q) = max (a (ix2 r q) + b (ix2 (0 : Fin 1) q)) 0 := by
  unfold biasRelu
  show max (a (ix2 r q) + broadcastInDim _ ![0, 1] _ b (ix2 r q)) (Ideal.ofBits .f32 0x00000000#32) = _
  rw [broadcastInDim_oneRow_apply, Ideal.ofBits_zero_f32]

/-! ## A row's maximum and a row's sum, on the kernel's side -/

/-- Row `p` of an `m × 40` array with the column `k` put back on the reduced axis is the index `(p, k)`. -/
theorem lift_row {m : ℕ} (h : (⟨2, ![m, 40]⟩ : Shape).Reduces [1] ⟨1, ![m]⟩) (p : Fin m) (k : Fin 40) :
    h.lift (ix1 p) k = ix2 p k := by
  funext c
  apply Fin.ext
  match c with
  | ⟨0, _⟩ => rfl
  | ⟨1, _⟩ => rfl

/-- The vector unit's maximum over the columns from `−∞`, read at row `p`, is that row's maximum. -/
theorem multiReduction_rowMax {m : ℕ} (v : FVec Ideal ⟨2, ![m, 40]⟩ .f32) (h : (⟨2, ![m, 40]⟩ : Shape).Reduces [1] ⟨1, ![m]⟩)
    (hφ : FKind.Formats .f32) (hacc : (0xFF800000#32 : BitVec 32) = FKind.maximumf.neutral .f32 hφ) (p : Fin m) :
    multiReduction .maximumf [1] ⟨1, ![m]⟩ v 0xFF800000#32 h hφ hacc (ix1 p) = rowMax (fun k => v (ix2 p k)) := by
  refine (Ideal.multiReduction_maximumf_single v _ h hφ hacc (ix1 p)).trans ?_
  unfold rowMax
  show Finset.fold max (Ideal.ofBits .f32 0xFF800000#32) (fun k : Fin 40 => v (h.lift (ix1 p) k)) Finset.univ = _
  rw [ofBits_negInf_f32]
  exact congrArg (fun f : Fin 40 → EReal => Finset.fold max ⊥ f Finset.univ) (funext fun k => congrArg v (lift_row h p k))

/-- The vector unit's sum over the columns, read at row `p`, is that row's sum. -/
theorem multiReduction_rowSum {m : ℕ} (v : FVec Ideal ⟨2, ![m, 40]⟩ .f32) (h : (⟨2, ![m, 40]⟩ : Shape).Reduces [1] ⟨1, ![m]⟩)
    (hφ : FKind.Formats .f32) (hacc : (0x00000000#32 : BitVec 32) = FKind.add.neutral .f32 hφ) (p : Fin m) :
    multiReduction .add [1] ⟨1, ![m]⟩ v 0x00000000#32 h hφ hacc (ix1 p) = ∑ k : Fin 40, v (ix2 p k) := by
  refine (Ideal.multiReduction_add_single v _ h hφ hacc (ix1 p)).trans ?_
  exact Finset.sum_congr rfl fun k _ => congrArg v (lift_row h p k)

/-! ## The kernel's log-softmax block -/

/-- The kernel's row-wise log-softmax of a 5000 × 40 block `y` — the block minus its row maxima laid along the rows,
    minus the logarithm of the row sums of the exponentials of that difference laid along the rows — read at (p, q):
    entry `q` of the log-softmax of row `p`. -/
theorem kernelLogSoftmax_at (y : FVec Ideal Cert.KernelIdeal.S5000x40 .f32)
    (hr : Cert.KernelIdeal.S5000x40.Reduces [1] Cert.KernelIdeal.S5000)
    (hc : Cert.KernelIdeal.S5000.ShapeCasts Cert.KernelIdeal.S5000x1)
    (hb : Cert.KernelIdeal.S5000x1.Broadcasts Cert.KernelIdeal.S5000x40)
    (hφ : FKind.Formats .f32) (hmax : (0xFF800000#32 : BitVec 32) = FKind.maximumf.neutral .f32 hφ)
    (hadd : (0x00000000#32 : BitVec 32) = FKind.add.neutral .f32 hφ) (p : Fin 5000) (q : Fin 40) :
    subf (subf y (broadcastTo Cert.KernelIdeal.S5000x40
            (shapeCast Cert.KernelIdeal.S5000x1 (multiReduction .maximumf [1] Cert.KernelIdeal.S5000 y 0xFF800000#32 hr hφ hmax) hc) hb))
        (broadcastTo Cert.KernelIdeal.S5000x40
          (log (shapeCast Cert.KernelIdeal.S5000x1
            (multiReduction .add [1] Cert.KernelIdeal.S5000
              (exp (subf y (broadcastTo Cert.KernelIdeal.S5000x40
                (shapeCast Cert.KernelIdeal.S5000x1 (multiReduction .maximumf [1] Cert.KernelIdeal.S5000 y 0xFF800000#32 hr hφ hmax) hc) hb)))
              0x00000000#32 hr hφ hadd) hc)) hb) (ix2 p q)
      = lsmRow (fun k => y (ix2 p k)) q := by
  -- the shifted block at (p, k): the entry minus its row's maximum
  have hM : ∀ k : Fin 40, subf y (broadcastTo Cert.KernelIdeal.S5000x40
        (shapeCast Cert.KernelIdeal.S5000x1 (multiReduction .maximumf [1] Cert.KernelIdeal.S5000 y 0xFF800000#32 hr hφ hmax) hc) hb) (ix2 p k)
      = y (ix2 p k) - rowMax (fun k => y (ix2 p k)) := by
    intro k
    refine (subf_apply _ _ _).trans ?_
    rw [broadcastTo_a1_ab_apply, shapeCast_a_a1_apply, multiReduction_rowMax]
  refine (subf_apply _ _ _).trans ?_
  rw [hM q, broadcastTo_a1_ab_apply]
  show _ - Ideal.log (shapeCast Cert.KernelIdeal.S5000x1 _ hc (ix2 p (0 : Fin 1))) = _
  rw [shapeCast_a_a1_apply, multiReduction_rowSum]
  unfold lsmRow
  refine congrArg (fun s : EReal => y (ix2 p q) - rowMax (fun k => y (ix2 p k)) - Ideal.log s) ?_
  exact Finset.sum_congr rfl fun k _ => congrArg Ideal.exp (hM k)

/-- The kernel's bias-and-log-softmax block at (p, q): entry `q` of the log-softmax of row `p` plus the bias row. -/
theorem k3_at (x0 : FVec Ideal Cert.KernelIdeal.S5000x40 .f32) (x1 : FVec Ideal Cert.KernelIdeal.S1x40 .f32) (p : Fin 5000) (q : Fin 40) :
    Cert.KernelIdeal.Gen.k3_pay1 (F := Ideal) x0 x1 (ix2 p q) = lsmRow (fun k => x0 (ix2 p k) + x1 (ix2 (0 : Fin 1) k)) q := by
  unfold Cert.KernelIdeal.Gen.k3_pay1
  refine (kernelLogSoftmax_at _ _ _ _ _ _ _ p q).trans ?_
  refine congrArg (fun row : Fin 40 → EReal => lsmRow row q) (funext fun k => ?_)
  show shapeCast _ x0 _ (ix2 p k) + broadcastTo _ (shapeCast _ x1 _) _ (ix2 p k) = _
  rw [shapeCast_self, shapeCast_self, broadcastTo_1b_ab_apply]

/-! ## A row's maximum and a row's sum, on the host's side -/

/-- The host's maximum over the columns from `−∞`, read at row `r`, is that row's maximum. -/
theorem hostReduce_rowMax {m : ℕ} (y : FVec Ideal ⟨2, ![m, 40]⟩ .f32) (h' : (⟨2, ![m, 40]⟩ : Shape).ReducesTo [1] ⟨1, ![m]⟩)
    (h : (⟨2, ![m, 40]⟩ : Shape).Reduces [1] ⟨1, ![m]⟩) (hu : 0 < (⟨0, ![]⟩ : Shape).numel) (r : Fin m) :
    Host.reduce FloatOps.maximumf y (constant (F := Ideal) ⟨0, ![]⟩ .f32 0xFF800000#32) h' hu (ix1 r)
      = rowMax (fun k => y (ix2 r k)) := by
  refine (Host.reduce_eq_fold_single FloatOps.maximumf y _ h' h hu (ix1 r)).trans ?_
  unfold rowMax
  show Finset.fold max (Ideal.ofBits .f32 0xFF800000#32) (fun k : Fin 40 => y (h.lift (ix1 r) k)) Finset.univ = _
  rw [ofBits_negInf_f32]
  exact congrArg (fun f : Fin 40 → EReal => Finset.fold max ⊥ f Finset.univ) (funext fun k => congrArg y (lift_row h r k))

/-- The host's sum over the columns from zero, read at row `r`, is that row's sum. -/
theorem hostReduceAdd_rowSum {m : ℕ} (v : FVec Ideal ⟨2, ![m, 40]⟩ .f32) (h' : (⟨2, ![m, 40]⟩ : Shape).ReducesTo [1] ⟨1, ![m]⟩)
    (h : (⟨2, ![m, 40]⟩ : Shape).Reduces [1] ⟨1, ![m]⟩) (hu : 0 < (⟨0, ![]⟩ : Shape).numel) (r : Fin m) :
    Host.reduceAdd v (constant (F := Ideal) ⟨0, ![]⟩ .f32 0x00000000#32) h' hu (ix1 r) = ∑ k : Fin 40, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (lift_row h r k)

/-! ## The reference's log-softmax array -/

/-- The reference's shifted array at (r, k): the entry minus its row's maximum (the maximum with `−∞` again changes nothing). -/
theorem shiftByRowMax_at (y : FVec Ideal Cert.ReferenceIdeal.S100000x40 .f32) (r : Fin 100000) (k : Fin 40) :
    shiftByRowMax y (ix2 r k) = y (ix2 r k) - rowMax (fun k => y (ix2 r k)) := by
  have hR : Cert.ReferenceIdeal.S100000x40.Reduces [1] Cert.ReferenceIdeal.S100000 := by decide
  unfold shiftByRowMax
  refine (subf_apply _ _ _).trans ?_
  rw [broadcastInDim_a1_ab_apply, broadcastInDim_a_a1_apply, maximumf_apply, hostReduce_rowMax _ _ hR]
  show _ - max (Ideal.ofBits .f32 0xFF800000#32) _ = _
  rw [ofBits_negInf_f32, max_bot_left]

/-- The reference's row-wise log-softmax at (r, q): entry `q` of the log-softmax of row `r`. -/
theorem logSoftmax_at (y : FVec Ideal Cert.ReferenceIdeal.S100000x40 .f32) (r : Fin 100000) (q : Fin 40) :
    logSoftmax y (ix2 r q) = lsmRow (fun k => y (ix2 r k)) q := by
  have hR : Cert.ReferenceIdeal.S100000x40.Reduces [1] Cert.ReferenceIdeal.S100000 := by decide
  unfold logSoftmax
  refine (subf_apply _ _ _).trans ?_
  rw [shiftByRowMax_at, broadcastInDim_a1_ab_apply]
  rw [hostLog_apply, broadcastInDim_a_a1_apply, hostReduceAdd_rowSum _ _ hR]
  unfold lsmRow
  refine congrArg (fun s : EReal => y (ix2 r q) - rowMax (fun k => y (ix2 r k)) - Ideal.log s) ?_
  exact Finset.sum_congr rfl fun k _ => (hostExp_apply _ _).trans (congrArg Ideal.exp (shiftByRowMax_at y r k))

/-- The reference's bias-and-log-softmax array at (r, q): entry `q` of the log-softmax of row `r` plus the bias row. -/
theorem biasLogSoftmax_at (z : FVec Ideal Cert.ReferenceIdeal.S100000x40 .f32) (b : FVec Ideal Cert.ReferenceIdeal.S1x40 .f32) (r : Fin 100000) (q : Fin 40) :
    biasLogSoftmax z b (ix2 r q) = lsmRow (fun k => z (ix2 r k) + b (ix2 (0 : Fin 1) k)) q := by
  unfold biasLogSoftmax
  refine (logSoftmax_at _ r q).trans ?_
  refine congrArg (fun row : Fin 40 → EReal => lsmRow row q) (funext fun k => ?_)
  refine (addf_apply _ _ _).trans ?_
  rw [broadcastInDim_oneRow_apply]

end Cert.Gcn

end
-- ==== Proof.Region1.lean ====
/-
  The second kernel region's result array: bias and clipping at zero.

  The region's grid has twenty points; point `t` stages rows 5000·t … 5000·t + 4999 of its first operand and the whole of its
  second, and writes back rows 5000·t … 5000·t + 4999 of the result. The block written back is, at (p, q), the maximum of zero and the staged row's entry plus the bias row's entry q, as is the whole-array function at (5000·t + p, q).
  Since the twenty row blocks tile the 100000 rows, the result array after the region is that function of the two operand
  arrays as the region found them, whatever they are.
-/
import proofs.«171927_j27865747816552_1_alg».proof.Proof.Gen.KernelIdeal.Frame
import proofs.«171927_j27865747816552_1_alg».proof.Proof.PointwiseAt
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz_1 : (![0, 0] : Fin 2 → Nat) = fun _ => 0 := funext fun a => by fin_cases a <;> rfl

/-- The printed index maps over the grid: the first operand's and the result's blocks move down the rows with the point, the
    second operand's block stays at the origin. -/
theorem idx_1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- Entry (p, k) of the first operand's block at point `t` is entry (5000·t + p, k) of its array. -/
theorem rows_1 (c : Dev nD) (t : Fin cfg1.N) (p : Fin 5000) (k : Fin 16) (r : Fin 100000) (hr : r.val = 5000 * t.val + p.val) :
    (iblk1 V c 0 t : Vec Ideal S5000x16 .f32) (ix2 p k) = (V c main_v45 : S100000x16.Idx → EReal) (ix2 r k) := by
  obtain ⟨e0, e1, -⟩ := idx_1 t
  unfold iblk1
  rw [View.read_apply]
  show V c main_v45 _ = V c main_v45 _
  congr 1
  funext a
  apply Fin.ext
  match a with
  | ⟨0, _⟩ => show win1_0.index t (0 : Fin 2) * 5000 + 1 * p.val = r.val; omega
  | ⟨1, _⟩ => show win1_0.index t (1 : Fin 2) * 16 + 1 * k.val = k.val; omega

/-- The second operand's block at any point is its whole array. -/
theorem whole_1 (c : Dev nD) (t : Fin cfg1.N) (a : Fin 1) (b : Fin 16) :
    (iblk1 V c 1 t : Vec Ideal S1x16 .f32) (ix2 a b) = (V c main_v46 : S1x16.Idx → EReal) (ix2 a b) := by
  obtain ⟨-, -, e2, e3, -⟩ := idx_1 t
  unfold iblk1
  rw [View.read_apply]
  show V c main_v46 _ = V c main_v46 _
  congr 1
  funext d
  apply Fin.ext
  match d with
  | ⟨0, _⟩ => show win1_1.index t (0 : Fin 2) * 1 + 1 * a.val = a.val; omega
  | ⟨1, _⟩ => show win1_1.index t (1 : Fin 2) * 16 + 1 * b.val = b.val; omega

/-- Entry (p, q) of the result's block at point `t` sits at (5000·t + p, q) of the result array. -/
theorem out_1 (t : Fin cfg1.N) (p : Fin 5000) (q : Fin 16) (r : Fin 100000) (hr : r.val = 5000 * t.val + p.val) :
    (((cfg1.win 2).blk t).view.emb (ix2 p q) : S100000x16.Idx) = ix2 r q := by
  obtain ⟨-, -, -, -, e4, e5⟩ := idx_1 t
  funext a
  apply Fin.ext
  match a with
  | ⟨0, _⟩ => show win1_2.index t (0 : Fin 2) * 5000 + 1 * p.val = r.val; omega
  | ⟨1, _⟩ => show win1_2.index t (1 : Fin 2) * 16 + 1 * q.val = q.val; omega

/-- What point `t` writes back is block `t` of the whole-array function of the operand arrays. -/
theorem flushed_1 (c : Dev nD) (t : Fin cfg1.N) :
    (dat1 V c).flushed 2 t = ((cfg1.win 2).blk t).view.read (Elt Ideal) (Cert.Gcn.biasRelu (V c main_v45) (V c main_v46)) := by
  show (cfg1.win 2).cut (grid1.coords t) ((dat1 V c).after 2 t) = _
  rw [after1_2]
  unfold out1_2
  rw [View.canon_unit_zero hz_1]
  simp only [View.ld_unit_zero (S := S5000x16) hz_1, View.ld_unit_zero (S := S1x16) hz_1]
  refine funext fun (y : S5000x16.Idx) => ?_
  obtain ⟨p, q, rfl⟩ : ∃ (p : Fin 5000) (q : Fin 16), y = ix2 p q := ⟨y 0, y 1, eq_ix2 y⟩
  have hN : cfg1.N = 20 := N_1
  have ht : t.val < 20 := hN ▸ t.isLt
  have hr : 5000 * t.val + p.val < 100000 := by have := p.isLt; omega
  show k1_pay1 (iblk1 V c 0 t) (iblk1 V c 1 t) (ix2 p q)
    = Cert.Gcn.biasRelu (V c main_v45) (V c main_v46) (((cfg1.win 2).blk t).view.emb (ix2 p q))
  rw [out_1 t p q ⟨_, hr⟩ rfl]
  refine (Cert.Gcn.k1_at _ _ p q).trans ?_
  refine Eq.trans ?_ (Cert.Gcn.biasRelu_at _ _ ⟨_, hr⟩ q).symm
  rw [rows_1 V c t p q ⟨_, hr⟩ rfl, whole_1 V c t 0 q]

/-- An index of the result array is in point `t`'s block iff each coordinate is in the block's range on its axis. -/
theorem mem_1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v47).slice (win1_2.rect t)).set ↔ _
  rw [View.set_slice_whole, Rect.mem_set_unit]
  exact Iff.rfl

/-- Every row of the result lies in the block of the point that is the row's number divided by 5000. -/
theorem cover_1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  have hlt : (i 0).val / 5000 < cfg1.N := by rw [hN]; omega
  refine ⟨⟨(i 0).val / 5000, hlt⟩, flush1_2 _, ?_⟩
  rw [mem_1]
  obtain ⟨-, -, -, -, e4, e5⟩ := idx_1 ⟨(i 0).val / 5000, hlt⟩
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hlt⟩ (1 : Fin 2) * 16 ≤ (i 1).val ∧ (i 1).val < win1_2.index ⟨(i 0).val / 5000, hlt⟩ (1 : Fin 2) * 16 + 16
    rw [e5]
    omega

/-- The result array after the region: the whole-array function of the operand arrays as the region found them. -/
theorem final_1 (c : Dev nD) :
    (dat1 V c).arrAt 2 cfg1.N = Cert.Gcn.biasRelu (V c main_v45) (V c main_v46) :=
  (dat1 V c).arrAt_eq_of_cover 2 _ (fun t _ => flushed_1 V c t) cover_1

end Cert.KernelIdeal.Whole

end
-- ==== Proof.Region2.lean ====
/-
  The third kernel region's result array: the second layer's projection.

  The region's grid has twenty points; point `t` stages rows 5000·t … 5000·t + 4999 of its first operand and the whole of its
  second, and writes back rows 5000·t … 5000·t + 4999 of the result. The block written back is the product of the staged rows with the staged 16 × 40 matrix, which at (p, q) is the sum over k of the operands' products, as is the whole-array product at (5000·t + p, q).
  Since the twenty row blocks tile the 100000 rows, the result array after the region is that function of the two operand
  arrays as the region found them, whatever they are.
-/
import proofs.«171927_j27865747816552_1_alg».proof.Proof.Gen.KernelIdeal.Frame
import proofs.«171927_j27865747816552_1_alg».proof.Proof.MatmulAt
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz_2 : (![0, 0] : Fin 2 → Nat) = fun _ => 0 := funext fun a => by fin_cases a <;> rfl

/-- The printed index maps over the grid: the first operand's and the result's blocks move down the rows with the point, the
    second operand's block stays at the origin. -/
theorem idx_2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- Entry (p, k) of the first operand's block at point `t` is entry (5000·t + p, k) of its array. -/
theorem rows_2 (c : Dev nD) (t : Fin cfg2.N) (p : Fin 5000) (k : Fin 16) (r : Fin 100000) (hr : r.val = 5000 * t.val + p.val) :
    (iblk2 V c 0 t : Vec Ideal S5000x16 .f32) (ix2 p k) = (V c main_v47 : S100000x16.Idx → EReal) (ix2 r k) := by
  obtain ⟨e0, e1, -⟩ := idx_2 t
  unfold iblk2
  rw [View.read_apply]
  show V c main_v47 _ = V c main_v47 _
  congr 1
  funext a
  apply Fin.ext
  match a with
  | ⟨0, _⟩ => show win2_0.index t (0 : Fin 2) * 5000 + 1 * p.val = r.val; omega
  | ⟨1, _⟩ => show win2_0.index t (1 : Fin 2) * 16 + 1 * k.val = k.val; omega

/-- The second operand's block at any point is its whole array. -/
theorem whole_2 (c : Dev nD) (t : Fin cfg2.N) (a : Fin 16) (b : Fin 40) :
    (iblk2 V c 1 t : Vec Ideal S16x40 .f32) (ix2 a b) = (V c main_arg5 : S16x40.Idx → EReal) (ix2 a b) := by
  obtain ⟨-, -, e2, e3, -⟩ := idx_2 t
  unfold iblk2
  rw [View.read_apply]
  show V c main_arg5 _ = V c main_arg5 _
  congr 1
  funext d
  apply Fin.ext
  match d with
  | ⟨0, _⟩ => show win2_1.index t (0 : Fin 2) * 16 + 1 * a.val = a.val; omega
  | ⟨1, _⟩ => show win2_1.index t (1 : Fin 2) * 40 + 1 * b.val = b.val; omega

/-- Entry (p, q) of the result's block at point `t` sits at (5000·t + p, q) of the result array. -/
theorem out_2 (t : Fin cfg2.N) (p : Fin 5000) (q : Fin 40) (r : Fin 100000) (hr : r.val = 5000 * t.val + p.val) :
    (((cfg2.win 2).blk t).view.emb (ix2 p q) : S100000x40.Idx) = ix2 r q := by
  obtain ⟨-, -, -, -, e4, e5⟩ := idx_2 t
  funext a
  apply Fin.ext
  match a with
  | ⟨0, _⟩ => show win2_2.index t (0 : Fin 2) * 5000 + 1 * p.val = r.val; omega
  | ⟨1, _⟩ => show win2_2.index t (1 : Fin 2) * 40 + 1 * q.val = q.val; omega

/-- What point `t` writes back is block `t` of the whole-array function of the operand arrays. -/
theorem flushed_2 (c : Dev nD) (t : Fin cfg2.N) :
    (dat2 V c).flushed 2 t = ((cfg2.win 2).blk t).view.read (Elt Ideal) (Cert.Gcn.project40 (V c main_v47) (V c main_arg5)) := by
  show (cfg2.win 2).cut (grid2.coords t) ((dat2 V c).after 2 t) = _
  rw [after2_2]
  unfold out2_2
  rw [View.canon_unit_zero hz_2]
  simp only [View.ld_unit_zero (S := S5000x16) hz_2, View.ld_unit_zero (S := S16x40) hz_2]
  refine funext fun (y : S5000x40.Idx) => ?_
  obtain ⟨p, q, rfl⟩ : ∃ (p : Fin 5000) (q : Fin 40), y = ix2 p q := ⟨y 0, y 1, eq_ix2 y⟩
  have hN : cfg2.N = 20 := N_2
  have ht : t.val < 20 := hN ▸ t.isLt
  have hr : 5000 * t.val + p.val < 100000 := by have := p.isLt; omega
  show k2_pay1 (iblk2 V c 0 t) (iblk2 V c 1 t) (ix2 p q)
    = Cert.Gcn.project40 (V c main_v47) (V c main_arg5) (((cfg2.win 2).blk t).view.emb (ix2 p q))
  rw [out_2 t p q ⟨_, hr⟩ rfl]
  refine (Cert.Gcn.k2_at _ _ p q).trans ?_
  refine Eq.trans ?_ (Cert.Gcn.project40_at _ _ ⟨_, hr⟩ q).symm
  refine Finset.sum_congr rfl fun j _ => ?_
  rw [rows_2 V c t p j ⟨_, hr⟩ rfl, whole_2 V c t j q]

/-- An index of the result array is in point `t`'s block iff each coordinate is in the block's range on its axis. -/
theorem mem_2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v48).slice (win2_2.rect t)).set ↔ _
  rw [View.set_slice_whole, Rect.mem_set_unit]
  exact Iff.rfl

/-- Every row of the result lies in the block of the point that is the row's number divided by 5000. -/
theorem cover_2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  have hlt : (i 0).val / 5000 < cfg2.N := by rw [hN]; omega
  refine ⟨⟨(i 0).val / 5000, hlt⟩, flush2_2 _, ?_⟩
  rw [mem_2]
  obtain ⟨-, -, -, -, e4, e5⟩ := idx_2 ⟨(i 0).val / 5000, hlt⟩
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hlt⟩ (1 : Fin 2) * 40 ≤ (i 1).val ∧ (i 1).val < win2_2.index ⟨(i 0).val / 5000, hlt⟩ (1 : Fin 2) * 40 + 40
    rw [e5]
    omega

/-- The result array after the region: the whole-array function of the operand arrays as the region found them. -/
theorem final_2 (c : Dev nD) :
    (dat2 V c).arrAt 2 cfg2.N = Cert.Gcn.project40 (V c main_v47) (V c main_arg5) :=
  (dat2 V c).arrAt_eq_of_cover 2 _ (fun t _ => flushed_2 V c t) cover_2

end Cert.KernelIdeal.Whole

end
-- ==== Proof.Region3.lean ====
/-
  The fourth kernel region's result array: bias and the row-wise log-softmax.

  The region's grid has twenty points; point `t` stages rows 5000·t … 5000·t + 4999 of its first operand and the whole of its
  second, and writes back rows 5000·t … 5000·t + 4999 of the result. The block written back is, at (p, q), the log-softmax of the staged row plus the bias row, at entry q, as is the whole-array function at (5000·t + p, q): both depend only on that one row of forty entries.
  Since the twenty row blocks tile the 100000 rows, the result array after the region is that function of the two operand
  arrays as the region found them, whatever they are.
-/
import proofs.«171927_j27865747816552_1_alg».proof.Proof.Gen.KernelIdeal.Frame
import proofs.«171927_j27865747816552_1_alg».proof.Proof.PointwiseAt
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz_3 : (![0, 0] : Fin 2 → Nat) = fun _ => 0 := funext fun a => by fin_cases a <;> rfl

/-- The printed index maps over the grid: the first operand's and the result's blocks move down the rows with the point, the
    second operand's block stays at the origin. -/
theorem idx_3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0)

/-- Entry (p, k) of the first operand's block at point `t` is entry (5000·t + p, k) of its array. -/
theorem rows_3 (c : Dev nD) (t : Fin cfg3.N) (p : Fin 5000) (k : Fin 40) (r : Fin 100000) (hr : r.val = 5000 * t.val + p.val) :
    (iblk3 V c 0 t : Vec Ideal S5000x40 .f32) (ix2 p k) = (V c main_v61 : S100000x40.Idx → EReal) (ix2 r k) := by
  obtain ⟨e0, e1, -⟩ := idx_3 t
  unfold iblk3
  rw [View.read_apply]
  show V c main_v61 _ = V c main_v61 _
  congr 1
  funext a
  apply Fin.ext
  match a with
  | ⟨0, _⟩ => show win3_0.index t (0 : Fin 2) * 5000 + 1 * p.val = r.val; omega
  | ⟨1, _⟩ => show win3_0.index t (1 : Fin 2) * 40 + 1 * k.val = k.val; omega

/-- The second operand's block at any point is its whole array. -/
theorem whole_3 (c : Dev nD) (t : Fin cfg3.N) (a : Fin 1) (b : Fin 40) :
    (iblk3 V c 1 t : Vec Ideal S1x40 .f32) (ix2 a b) = (V c main_v62 : S1x40.Idx → EReal) (ix2 a b) := by
  obtain ⟨-, -, e2, e3, -⟩ := idx_3 t
  unfold iblk3
  rw [View.read_apply]
  show V c main_v62 _ = V c main_v62 _
  congr 1
  funext d
  apply Fin.ext
  match d with
  | ⟨0, _⟩ => show win3_1.index t (0 : Fin 2) * 1 + 1 * a.val = a.val; omega
  | ⟨1, _⟩ => show win3_1.index t (1 : Fin 2) * 40 + 1 * b.val = b.val; omega

/-- Entry (p, q) of the result's block at point `t` sits at (5000·t + p, q) of the result array. -/
theorem out_3 (t : Fin cfg3.N) (p : Fin 5000) (q : Fin 40) (r : Fin 100000) (hr : r.val = 5000 * t.val + p.val) :
    (((cfg3.win 2).blk t).view.emb (ix2 p q) : S100000x40.Idx) = ix2 r q := by
  obtain ⟨-, -, -, -, e4, e5⟩ := idx_3 t
  funext a
  apply Fin.ext
  match a with
  | ⟨0, _⟩ => show win3_2.index t (0 : Fin 2) * 5000 + 1 * p.val = r.val; omega
  | ⟨1, _⟩ => show win3_2.index t (1 : Fin 2) * 40 + 1 * q.val = q.val; omega

/-- What point `t` writes back is block `t` of the whole-array function of the operand arrays. -/
theorem flushed_3 (c : Dev nD) (t : Fin cfg3.N) :
    (dat3 V c).flushed 2 t = ((cfg3.win 2).blk t).view.read (Elt Ideal) (Cert.Gcn.biasLogSoftmax (V c main_v61) (V c main_v62)) := by
  show (cfg3.win 2).cut (grid3.coords t) ((dat3 V c).after 2 t) = _
  rw [after3_2]
  unfold out3_2
  rw [View.canon_unit_zero hz_3]
  simp only [View.ld_unit_zero (S := S5000x40) hz_3, View.ld_unit_zero (S := S1x40) hz_3]
  refine funext fun (y : S5000x40.Idx) => ?_
  obtain ⟨p, q, rfl⟩ : ∃ (p : Fin 5000) (q : Fin 40), y = ix2 p q := ⟨y 0, y 1, eq_ix2 y⟩
  have hN : cfg3.N = 20 := N_3
  have ht : t.val < 20 := hN ▸ t.isLt
  have hr : 5000 * t.val + p.val < 100000 := by have := p.isLt; omega
  show k3_pay1 (iblk3 V c 0 t) (iblk3 V c 1 t) (ix2 p q)
    = Cert.Gcn.biasLogSoftmax (V c main_v61) (V c main_v62) (((cfg3.win 2).blk t).view.emb (ix2 p q))
  rw [out_3 t p q ⟨_, hr⟩ rfl]
  refine (Cert.Gcn.k3_at _ _ p q).trans ?_
  refine Eq.trans ?_ (Cert.Gcn.biasLogSoftmax_at _ _ ⟨_, hr⟩ q).symm
  refine congrArg (fun row => Cert.Gcn.lsmRow row q) (funext fun j => ?_)
  rw [rows_3 V c t p j ⟨_, hr⟩ rfl, whole_3 V c t 0 j]

/-- An index of the result array is in point `t`'s block iff each coordinate is in the block's range on its axis. -/
theorem mem_3 (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v63).slice (win3_2.rect t)).set ↔ _
  rw [View.set_slice_whole, Rect.mem_set_unit]
  exact Iff.rfl

/-- Every row of the result lies in the block of the point that is the row's number divided by 5000. -/
theorem cover_3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 20 := N_3
  have hlt : (i 0).val / 5000 < cfg3.N := by rw [hN]; omega
  refine ⟨⟨(i 0).val / 5000, hlt⟩, flush3_2 _, ?_⟩
  rw [mem_3]
  obtain ⟨-, -, -, -, e4, e5⟩ := idx_3 ⟨(i 0).val / 5000, hlt⟩
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, hlt⟩ (1 : Fin 2) * 40 ≤ (i 1).val ∧ (i 1).val < win3_2.index ⟨(i 0).val / 5000, hlt⟩ (1 : Fin 2) * 40 + 40
    rw [e5]
    omega

/-- The result array after the region: the whole-array function of the operand arrays as the region found them. -/
theorem final_3 (c : Dev nD) :
    (dat3 V c).arrAt 2 cfg3.N = Cert.Gcn.biasLogSoftmax (V c main_v61) (V c main_v62) :=
  (dat3 V c).arrAt_eq_of_cover 2 _ (fun t _ => flushed_3 V c t) cover_3

end Cert.KernelIdeal.Whole

end
-- ==== Proof.Boundaries.lean ====
/-
  The idealized kernel program's result buffer as a function of the launch arguments.

  The contents of the TensorCore's buffers at the nine segment boundaries are a fold from the launch memory. Read through that
  fold, buffer by buffer: the host stretches before the first region compute the self-looped source and destination index
  vectors and the symmetric normalisation of the edge weights, exactly as the reference does; each region's result array is the
  whole-array layer function of its operand arrays (the four region modules); each host stretch between regions gathers the
  projected rows by source, scales them by the normalisation and adds them into the destination rows, again as the reference
  does. So after the last region the result buffer holds the reference's own last stage of the launch arguments.
-/
import proofs.«171927_j27865747816552_1_alg».proof.Proof.Region0
import proofs.«171927_j27865747816552_1_alg».proof.Proof.Region1
import proofs.«171927_j27865747816552_1_alg».proof.Proof.Region2
import proofs.«171927_j27865747816552_1_alg».proof.Proof.Region3
import proofs.«171927_j27865747816552_1_alg».proof.Proof.RefRead
import proofs.«171927_j27865747816552_1_alg».proof.Proof.LibKeepdims
import Idealize.ShloMosaic.Lib.StableHlo.Run
import Idealize.ShloMosaic.Lib.ValueLayout

set_option maxRecDepth 65536

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-- The seven launch arguments on core `c`. -/
abbrev A0 : S100000x512.Idx → EReal := m ((c.tc : Thread nD τ).loc main_arg0)
abbrev A1 : S2x3200000.Idx → BitVec 32 := m ((c.tc : Thread nD τ).loc main_arg1)
abbrev A2 : S3200000.Idx → EReal := m ((c.tc : Thread nD τ).loc main_arg2)
abbrev A3 : S512x16.Idx → EReal := m ((c.tc : Thread nD τ).loc main_arg3)
abbrev A4 : S16.Idx → EReal := m ((c.tc : Thread nD τ).loc main_arg4)
abbrev A5 : S16x40.Idx → EReal := m ((c.tc : Thread nD τ).loc main_arg5)
abbrev A6 : S40.Idx → EReal := m ((c.tc : Thread nD τ).loc main_arg6)

/-! ## Before the first region: the arguments, the index vectors and the normalisation

The three host stretches before the first region, read one at a time. -/

/-- The buffer contents after the first stretch, and after the second. -/
def K1 : Valuation τ sig (Elt Ideal) := StableHlo.after hostOps0 (W0 m ρ c)
def K2 : Valuation τ sig (Elt Ideal) := StableHlo.after hostOps0_1 (K1 m ρ c)

theorem K1_arg0 : K1 m ρ c (Proc.devRef .tc main_arg0) = A0 m c := by
  show StableHlo.after hostOps0 (W0 m ρ c) (Proc.devRef .tc main_arg0) = _
  after_results <;> rfl
theorem K1_arg3 : K1 m ρ c (Proc.devRef .tc main_arg3) = A3 m c := by
  show StableHlo.after hostOps0 (W0 m ρ c) (Proc.devRef .tc main_arg3) = _
  after_results <;> rfl
theorem K1_arg4 : K1 m ρ c (Proc.devRef .tc main_arg4) = A4 m c := by
  show StableHlo.after hostOps0 (W0 m ρ c) (Proc.devRef .tc main_arg4) = _
  after_results <;> rfl
theorem K1_arg5 : K1 m ρ c (Proc.devRef .tc main_arg5) = A5 m c := by
  show StableHlo.after hostOps0 (W0 m ρ c) (Proc.devRef .tc main_arg5) = _
  after_results <;> rfl
theorem K1_arg6 : K1 m ρ c (Proc.devRef .tc main_arg6) = A6 m c := by
  show StableHlo.after hostOps0 (W0 m ρ c) (Proc.devRef .tc main_arg6) = _
  after_results <;> rfl
/-- The source indices with the self-loops appended. -/
theorem K1_src : K1 m ρ c (Proc.devRef .tc main_v5) = Cert.ReferenceIdeal.ReadP.val_main_v3 (F := Ideal) (A1 m c) := by
  show StableHlo.after hostOps0 (W0 m ρ c) (Proc.devRef .tc main_v5) = _
  after_results <;> rfl
/-- The destination indices with the self-loops appended. -/
theorem K1_dst : K1 m ρ c (Proc.devRef .tc main_v6) = Cert.ReferenceIdeal.ReadP.val_main_v6 (F := Ideal) (A1 m c) := by
  show StableHlo.after hostOps0 (W0 m ρ c) (Proc.devRef .tc main_v6) = _
  after_results <;> rfl
/-- The edge weights with the self-loops' ones appended. -/
theorem K1_wts : K1 m ρ c (Proc.devRef .tc main_v8) = Cert.ReferenceIdeal.ReadP.val_main_v8 (F := Ideal) (A2 m c) := by
  show StableHlo.after hostOps0 (W0 m ρ c) (Proc.devRef .tc main_v8) = _
  after_results <;> rfl
set_option maxHeartbeats 2000000 in
/-- Where the weighted in-degree is positive. -/
theorem K1_pos : K1 m ρ c (Proc.devRef .tc main_v13) = Cert.ReferenceIdeal.ReadP.val_main_v13 (F := Ideal) (A1 m c) (A2 m c) := by
  show StableHlo.after hostOps0 (W0 m ρ c) (Proc.devRef .tc main_v13) = _
  after_results <;> rfl
set_option maxHeartbeats 2000000 in
/-- The inverse square root of the weighted in-degree. -/
theorem K1_rsq : K1 m ρ c (Proc.devRef .tc main_v14) = Cert.ReferenceIdeal.ReadP.val_main_v14 (F := Ideal) (A1 m c) (A2 m c) := by
  show StableHlo.after hostOps0 (W0 m ρ c) (Proc.devRef .tc main_v14) = _
  after_results <;> rfl
theorem K1_zero : K1 m ρ c (Proc.devRef .tc main_cst_2) = Cert.ReferenceIdeal.ReadP.val_main_cst_2 (F := Ideal) := by
  show StableHlo.after hostOps0 (W0 m ρ c) (Proc.devRef .tc main_cst_2) = _
  after_results <;> rfl

/-- The selection of the inverse square roots comes from a called function, whose three operations move their operands and
    results between a buffer's own contents type and the tensor type the function states; at these literal buffers both moves
    are the identity, so the composite is the plain selection. -/
theorem call0_plain (a : (⟨Cert.ReferenceIdeal.S100000, .i1⟩ : BufTy).Contents (Elt Ideal)) (b : (⟨Cert.ReferenceIdeal.S100000, .f32⟩ : BufTy).Contents (Elt Ideal)) (z : (⟨Cert.ReferenceIdeal.S_, .f32⟩ : BufTy).Contents (Elt Ideal)) :
    (.of main_v15 : StableHlo.TRef sig ⟨S100000, .f32⟩).toBuf
      (select ((.of main_v13 : StableHlo.TRef sig ⟨S100000, .i1⟩).ofBuf a) ((.of main_v14 : StableHlo.TRef sig ⟨S100000, .f32⟩).ofBuf b)
        ((.of main_call0_v1 : StableHlo.TRef sig ⟨S100000, .f32⟩).ofBuf ((.of main_call0_v1 : StableHlo.TRef sig ⟨S100000, .f32⟩).toBuf
          (broadcastInDim S100000 ![] bcast_S_S100000 ((.of main_call0_v0 : StableHlo.TRef sig ⟨S_, .f32⟩).ofBuf ((.of main_call0_v0 : StableHlo.TRef sig ⟨S_, .f32⟩).toBuf
            (id ((.of main_cst_2 : StableHlo.TRef sig ⟨S_, .f32⟩).ofBuf z))))))))
    = select a b (broadcastInDim Cert.ReferenceIdeal.S100000 ![] Cert.ReferenceIdeal.Gen.bcast_S_S100000 (id z)) := rfl

set_option maxHeartbeats 2000000 in
/-- The inverse square roots of the weighted in-degrees, zero where the degree is not positive. -/
theorem K2_dis : K2 m ρ c (Proc.devRef .tc main_v15) = Cert.ReferenceIdeal.ReadP.val_main_v15 (F := Ideal) (A1 m c) (A2 m c) := by
  show StableHlo.after hostOps0_1 (K1 m ρ c) (Proc.devRef .tc main_v15) = _
  after_results
  rw [K1_pos, K1_rsq, K1_zero]
  refine Eq.trans ?_ (show select (Cert.ReferenceIdeal.ReadP.val_main_v13 (F := Ideal) (A1 m c) (A2 m c)) (Cert.ReferenceIdeal.ReadP.val_main_v14 (F := Ideal) (A1 m c) (A2 m c))
    (broadcastInDim Cert.ReferenceIdeal.S100000 ![] Cert.ReferenceIdeal.Gen.bcast_S_S100000 (id (Cert.ReferenceIdeal.ReadP.val_main_cst_2 (F := Ideal))))
    = Cert.ReferenceIdeal.ReadP.val_main_v15 (F := Ideal) (A1 m c) (A2 m c) from rfl)
  generalize Cert.ReferenceIdeal.ReadP.val_main_v13 (F := Ideal) (A1 m c) (A2 m c) = y0
  generalize Cert.ReferenceIdeal.ReadP.val_main_v14 (F := Ideal) (A1 m c) (A2 m c) = y1
  generalize Cert.ReferenceIdeal.ReadP.val_main_cst_2 (F := Ideal) = y2
  exact call0_plain y0 y1 y2
theorem K2_src : K2 m ρ c (Proc.devRef .tc main_v5) = Cert.ReferenceIdeal.ReadP.val_main_v3 (F := Ideal) (A1 m c) := by
  refine Eq.trans ?_ (K1_src m ρ c)
  show StableHlo.after hostOps0_1 (K1 m ρ c) (Proc.devRef .tc main_v5) = _
  after_results <;> rfl
theorem K2_dst : K2 m ρ c (Proc.devRef .tc main_v6) = Cert.ReferenceIdeal.ReadP.val_main_v6 (F := Ideal) (A1 m c) := by
  refine Eq.trans ?_ (K1_dst m ρ c)
  show StableHlo.after hostOps0_1 (K1 m ρ c) (Proc.devRef .tc main_v6) = _
  after_results <;> rfl
theorem K2_wts : K2 m ρ c (Proc.devRef .tc main_v8) = Cert.ReferenceIdeal.ReadP.val_main_v8 (F := Ideal) (A2 m c) := by
  refine Eq.trans ?_ (K1_wts m ρ c)
  show StableHlo.after hostOps0_1 (K1 m ρ c) (Proc.devRef .tc main_v8) = _
  after_results <;> rfl
theorem K2_arg0 : K2 m ρ c (Proc.devRef .tc main_arg0) = A0 m c := by
  refine Eq.trans ?_ (K1_arg0 m ρ c)
  show StableHlo.after hostOps0_1 (K1 m ρ c) (Proc.devRef .tc main_arg0) = _
  after_results <;> rfl
theorem K2_arg3 : K2 m ρ c (Proc.devRef .tc main_arg3) = A3 m c := by
  refine Eq.trans ?_ (K1_arg3 m ρ c)
  show StableHlo.after hostOps0_1 (K1 m ρ c) (Proc.devRef .tc main_arg3) = _
  after_results <;> rfl
theorem K2_arg4 : K2 m ρ c (Proc.devRef .tc main_arg4) = A4 m c := by
  refine Eq.trans ?_ (K1_arg4 m ρ c)
  show StableHlo.after hostOps0_1 (K1 m ρ c) (Proc.devRef .tc main_arg4) = _
  after_results <;> rfl
theorem K2_arg5 : K2 m ρ c (Proc.devRef .tc main_arg5) = A5 m c := by
  refine Eq.trans ?_ (K1_arg5 m ρ c)
  show StableHlo.after hostOps0_1 (K1 m ρ c) (Proc.devRef .tc main_arg5) = _
  after_results <;> rfl
theorem K2_arg6 : K2 m ρ c (Proc.devRef .tc main_arg6) = A6 m c := by
  refine Eq.trans ?_ (K1_arg6 m ρ c)
  show StableHlo.after hostOps0_1 (K1 m ρ c) (Proc.devRef .tc main_arg6) = _
  after_results <;> rfl

theorem W3_arg0 : W3 m ρ c (Proc.devRef .tc main_arg0) = A0 m c := by
  refine Eq.trans ?_ (K2_arg0 m ρ c)
  show StableHlo.after hostOps0_2 (K2 m ρ c) (Proc.devRef .tc main_arg0) = _
  after_results <;> rfl
theorem W3_arg3 : W3 m ρ c (Proc.devRef .tc main_arg3) = A3 m c := by
  refine Eq.trans ?_ (K2_arg3 m ρ c)
  show StableHlo.after hostOps0_2 (K2 m ρ c) (Proc.devRef .tc main_arg3) = _
  after_results <;> rfl
theorem W3_arg4 : W3 m ρ c (Proc.devRef .tc main_arg4) = A4 m c := by
  refine Eq.trans ?_ (K2_arg4 m ρ c)
  show StableHlo.after hostOps0_2 (K2 m ρ c) (Proc.devRef .tc main_arg4) = _
  after_results <;> rfl
theorem W3_arg5 : W3 m ρ c (Proc.devRef .tc main_arg5) = A5 m c := by
  refine Eq.trans ?_ (K2_arg5 m ρ c)
  show StableHlo.after hostOps0_2 (K2 m ρ c) (Proc.devRef .tc main_arg5) = _
  after_results <;> rfl
theorem W3_arg6 : W3 m ρ c (Proc.devRef .tc main_arg6) = A6 m c := by
  refine Eq.trans ?_ (K2_arg6 m ρ c)
  show StableHlo.after hostOps0_2 (K2 m ρ c) (Proc.devRef .tc main_arg6) = _
  after_results <;> rfl
theorem W3_src : W3 m ρ c (Proc.devRef .tc main_v5) = Cert.ReferenceIdeal.ReadP.val_main_v3 (F := Ideal) (A1 m c) := by
  refine Eq.trans ?_ (K2_src m ρ c)
  show StableHlo.after hostOps0_2 (K2 m ρ c) (Proc.devRef .tc main_v5) = _
  after_results <;> rfl
theorem W3_dst : W3 m ρ c (Proc.devRef .tc main_v6) = Cert.ReferenceIdeal.ReadP.val_main_v6 (F := Ideal) (A1 m c) := by
  refine Eq.trans ?_ (K2_dst m ρ c)
  show StableHlo.after hostOps0_2 (K2 m ρ c) (Proc.devRef .tc main_v6) = _
  after_results <;> rfl
set_option maxHeartbeats 4000000 in
/-- The symmetric normalisation of the edge weights. -/
theorem W3_norm : W3 m ρ c (Proc.devRef .tc main_v31) = Cert.ReferenceIdeal.ReadP.val_main_v31 (F := Ideal) (A1 m c) (A2 m c) := by
  show StableHlo.after hostOps0_2 (K2 m ρ c) (Proc.devRef .tc main_v31) = _
  after_results
  rw [K2_dis, K2_src, K2_dst, K2_wts]
  rfl

/-! ## After the first region -/

theorem W4_proj : W4 m ρ c (Proc.devRef .tc main_v32) = Cert.ReferenceIdeal.ReadP.val_main_v32 (F := Ideal) (A0 m c) (A3 m c) := by
  refine (W4_arr m ρ c 2).trans ((final_0 (V3 m ρ) c).trans ?_)
  show Cert.Gcn.project16 (W3 m ρ c (Proc.devRef .tc main_arg0)) (W3 m ρ c (Proc.devRef .tc main_arg3)) = _
  rw [W3_arg0, W3_arg3]
  rfl
theorem W4_src : W4 m ρ c (Proc.devRef .tc main_v5) = Cert.ReferenceIdeal.ReadP.val_main_v3 (F := Ideal) (A1 m c) :=
  (W4_of_ne m ρ c main_v5 (by decide)).trans (W3_src m ρ c)
theorem W4_dst : W4 m ρ c (Proc.devRef .tc main_v6) = Cert.ReferenceIdeal.ReadP.val_main_v6 (F := Ideal) (A1 m c) :=
  (W4_of_ne m ρ c main_v6 (by decide)).trans (W3_dst m ρ c)
theorem W4_norm : W4 m ρ c (Proc.devRef .tc main_v31) = Cert.ReferenceIdeal.ReadP.val_main_v31 (F := Ideal) (A1 m c) (A2 m c) :=
  (W4_of_ne m ρ c main_v31 (by decide)).trans (W3_norm m ρ c)
theorem W4_arg4 : W4 m ρ c (Proc.devRef .tc main_arg4) = A4 m c :=
  (W4_of_ne m ρ c main_arg4 (by decide)).trans (W3_arg4 m ρ c)
theorem W4_arg5 : W4 m ρ c (Proc.devRef .tc main_arg5) = A5 m c :=
  (W4_of_ne m ρ c main_arg5 (by decide)).trans (W3_arg5 m ρ c)
theorem W4_arg6 : W4 m ρ c (Proc.devRef .tc main_arg6) = A6 m c :=
  (W4_of_ne m ρ c main_arg6 (by decide)).trans (W3_arg6 m ρ c)

/-! ## The first aggregation -/

set_option maxHeartbeats 4000000 in
theorem W5_agg : W5 m ρ c (Proc.devRef .tc main_v45) = Cert.ReferenceIdeal.ReadP.val_main_v45 (F := Ideal) (A0 m c) (A1 m c) (A2 m c) (A3 m c) := by
  show StableHlo.after hostOps1 (W4 m ρ c) (Proc.devRef .tc main_v45) = _
  after_results
  rw [W4_proj, W4_src, W4_dst, W4_norm]
  rfl
theorem W5_bias : W5 m ρ c (Proc.devRef .tc main_v46) = shapeCast S1x16 (A4 m c) shapeCasts_S16_S1x16 := by
  show StableHlo.after hostOps1 (W4 m ρ c) (Proc.devRef .tc main_v46) = _
  after_results
  rw [W4_arg4]
  rfl
theorem W5_src : W5 m ρ c (Proc.devRef .tc main_v5) = Cert.ReferenceIdeal.ReadP.val_main_v3 (F := Ideal) (A1 m c) := by
  refine Eq.trans ?_ (W4_src m ρ c)
  show StableHlo.after hostOps1 (W4 m ρ c) (Proc.devRef .tc main_v5) = _
  after_results <;> rfl
theorem W5_dst : W5 m ρ c (Proc.devRef .tc main_v6) = Cert.ReferenceIdeal.ReadP.val_main_v6 (F := Ideal) (A1 m c) := by
  refine Eq.trans ?_ (W4_dst m ρ c)
  show StableHlo.after hostOps1 (W4 m ρ c) (Proc.devRef .tc main_v6) = _
  after_results <;> rfl
theorem W5_norm : W5 m ρ c (Proc.devRef .tc main_v31) = Cert.ReferenceIdeal.ReadP.val_main_v31 (F := Ideal) (A1 m c) (A2 m c) := by
  refine Eq.trans ?_ (W4_norm m ρ c)
  show StableHlo.after hostOps1 (W4 m ρ c) (Proc.devRef .tc main_v31) = _
  after_results <;> rfl
theorem W5_arg5 : W5 m ρ c (Proc.devRef .tc main_arg5) = A5 m c := by
  refine Eq.trans ?_ (W4_arg5 m ρ c)
  show StableHlo.after hostOps1 (W4 m ρ c) (Proc.devRef .tc main_arg5) = _
  after_results <;> rfl
theorem W5_arg6 : W5 m ρ c (Proc.devRef .tc main_arg6) = A6 m c := by
  refine Eq.trans ?_ (W4_arg6 m ρ c)
  show StableHlo.after hostOps1 (W4 m ρ c) (Proc.devRef .tc main_arg6) = _
  after_results <;> rfl

/-! ## After the second region (bias and clipping) and the third (the second projection) -/

theorem W6_hidden : W6 m ρ c (Proc.devRef .tc main_v47) = Cert.ReferenceIdeal.ReadP.val_main_v49 (F := Ideal) (A0 m c) (A1 m c) (A2 m c) (A3 m c) (A4 m c) := by
  refine (W6_arr m ρ c 2).trans ((final_1 (V5 m ρ) c).trans ?_)
  show Cert.Gcn.biasRelu (W5 m ρ c (Proc.devRef .tc main_v45)) (W5 m ρ c (Proc.devRef .tc main_v46)) = _
  rw [W5_agg, W5_bias, Cert.Gcn.reshape_row_eq_broadcast (A4 m c) shapeCasts_S16_S1x16 Cert.ReferenceIdeal.Gen.bcast_S16_S1x16_1]
  rfl
theorem W6_src : W6 m ρ c (Proc.devRef .tc main_v5) = Cert.ReferenceIdeal.ReadP.val_main_v3 (F := Ideal) (A1 m c) :=
  (W6_of_ne m ρ c main_v5 (by decide)).trans (W5_src m ρ c)
theorem W6_dst : W6 m ρ c (Proc.devRef .tc main_v6) = Cert.ReferenceIdeal.ReadP.val_main_v6 (F := Ideal) (A1 m c) :=
  (W6_of_ne m ρ c main_v6 (by decide)).trans (W5_dst m ρ c)
theorem W6_norm : W6 m ρ c (Proc.devRef .tc main_v31) = Cert.ReferenceIdeal.ReadP.val_main_v31 (F := Ideal) (A1 m c) (A2 m c) :=
  (W6_of_ne m ρ c main_v31 (by decide)).trans (W5_norm m ρ c)
theorem W6_arg5 : W6 m ρ c (Proc.devRef .tc main_arg5) = A5 m c :=
  (W6_of_ne m ρ c main_arg5 (by decide)).trans (W5_arg5 m ρ c)
theorem W6_arg6 : W6 m ρ c (Proc.devRef .tc main_arg6) = A6 m c :=
  (W6_of_ne m ρ c main_arg6 (by decide)).trans (W5_arg6 m ρ c)

theorem W7_proj : W7 m ρ c (Proc.devRef .tc main_v48) = Cert.ReferenceIdeal.ReadP.val_main_v50 (F := Ideal) (A0 m c) (A1 m c) (A2 m c) (A3 m c) (A4 m c) (A5 m c) := by
  refine (W7_arr m ρ c 2).trans ((final_2 (V6 m ρ) c).trans ?_)
  show Cert.Gcn.project40 (W6 m ρ c (Proc.devRef .tc main_v47)) (W6 m ρ c (Proc.devRef .tc main_arg5)) = _
  rw [W6_hidden, W6_arg5]
  rfl
theorem W7_src : W7 m ρ c (Proc.devRef .tc main_v5) = Cert.ReferenceIdeal.ReadP.val_main_v3 (F := Ideal) (A1 m c) :=
  (W7_of_ne m ρ c main_v5 (by decide)).trans (W6_src m ρ c)
theorem W7_dst : W7 m ρ c (Proc.devRef .tc main_v6) = Cert.ReferenceIdeal.ReadP.val_main_v6 (F := Ideal) (A1 m c) :=
  (W7_of_ne m ρ c main_v6 (by decide)).trans (W6_dst m ρ c)
theorem W7_norm : W7 m ρ c (Proc.devRef .tc main_v31) = Cert.ReferenceIdeal.ReadP.val_main_v31 (F := Ideal) (A1 m c) (A2 m c) :=
  (W7_of_ne m ρ c main_v31 (by decide)).trans (W6_norm m ρ c)
theorem W7_arg6 : W7 m ρ c (Proc.devRef .tc main_arg6) = A6 m c :=
  (W7_of_ne m ρ c main_arg6 (by decide)).trans (W6_arg6 m ρ c)

/-! ## The second aggregation and the last region -/

set_option maxHeartbeats 4000000 in
theorem W8_agg : W8 m ρ c (Proc.devRef .tc main_v61) = Cert.ReferenceIdeal.ReadP.val_main_v63 (F := Ideal) (A0 m c) (A1 m c) (A2 m c) (A3 m c) (A4 m c) (A5 m c) := by
  show StableHlo.after hostOps3 (W7 m ρ c) (Proc.devRef .tc main_v61) = _
  after_results
  rw [W7_proj, W7_src, W7_dst, W7_norm]
  rfl
theorem W8_bias : W8 m ρ c (Proc.devRef .tc main_v62) = shapeCast S1x40 (A6 m c) shapeCasts_S40_S1x40 := by
  show StableHlo.after hostOps3 (W7 m ρ c) (Proc.devRef .tc main_v62) = _
  after_results
  rw [W7_arg6]
  rfl

/-- The result buffer after the last region: the reference's last stage of the launch arguments. -/
theorem W9_result : W9 m ρ c (Proc.devRef .tc main_v63) = Cert.ReferenceIdeal.ReadP.val_main_v67 (F := Ideal) (A0 m c) (A1 m c) (A2 m c) (A3 m c) (A4 m c) (A5 m c) (A6 m c) := by
  refine (W9_arr m ρ c 2).trans ((final_3 (V8 m ρ) c).trans ?_)
  show Cert.Gcn.biasLogSoftmax (W8 m ρ c (Proc.devRef .tc main_v61)) (W8 m ρ c (Proc.devRef .tc main_v62)) = _
  rw [W8_agg, W8_bias, Cert.Gcn.reshape_row_eq_broadcast (A6 m c) shapeCasts_S40_S1x40 Cert.ReferenceIdeal.Gen.bcast_S40_S1x40_1]
  rfl

end Cert.KernelIdeal.Whole

end
-- ==== Proof.LibTypedRefs.lean ====
/-
  Typed buffer references: writing contents at the tensor type into a buffer and reading them back is the identity.

  A typed reference carries a proof that its buffer's type is a given tensor type; contents move between the two types along
  that proof. For any typed reference the move to the buffer's type followed by the move back is the identity: take the
  buffer's type as the given type (the proof is then reflexivity) and both moves are the identity cast. This does not depend
  on a program.
-/
import Idealize.ShloMosaic.Lib.StableHlo

noncomputable section

namespace Cert.Gcn

open Idealize.ShloMosaic Idealize.ShloMosaic.StableHlo

/-- Contents moved to a typed reference's buffer type and back are unchanged. -/
theorem ofBuf_toBuf {sig : RefSig} {Val : EltTy → Type} {T : BufTy} (x : TRef sig T) (v : T.Contents Val) :
    x.ofBuf (x.toBuf v) = v := by
  obtain ⟨r, h, p, q⟩ := x
  subst h
  rfl

end Cert.Gcn

end
-- ==== Proof.RefStages.lean ====
/-
  The reference program's result as a function of the launch arguments, read in stages.

  Every buffer ends at the fold of @main's hundred operations over the launch contents. The fold is cut into eleven
  consecutive segments; after each segment the buffers that later segments read are named, each as the stage of the
  computation it holds — the self-looped source and destination index vectors, the weights with ones appended, the inverse
  square roots of the weighted in-degrees, the symmetric normalisation of the edge weights, a projection, an aggregation
  (gather by source, scale, add into the destination rows), a bias, a clipping at zero, and at the end a bias and the
  row-wise log-softmax — as a function of the seven launch arguments. The three groups of operations that come from a called
  function (the selection of the inverse square roots, the clipping, the log-softmax) are segments of their own: their
  operands are named before them, so that comparing terms never opens an earlier stage.
-/
import proofs.«171927_j27865747816552_1_alg».proof.Proof.RefRead
import proofs.«171927_j27865747816552_1_alg».proof.Proof.LibTypedRefs
import Idealize.ShloMosaic.Lib.Pipeline.Frame
import Idealize.ShloMosaic.Lib.StableHlo.Run

set_option maxRecDepth 65536

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

section Segments
variable {F : FTy → Type} [FloatOps F]

/-- Operations 0 … 18 of @main: the index vectors with self-loops, the weights with ones appended, the weighted in-degrees, their positivity and their inverse square roots. -/
abbrev seg1 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]
/-- Operations 19 … 21 of @main: the inverse square roots kept where the degree is positive, zero elsewhere. -/
abbrev seg2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]
/-- Operations 22 … 41 of @main: the symmetric normalisation of the edge weights. -/
abbrev seg3 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]
/-- Operations 42 … 42 of @main: the first projection. -/
abbrev seg4 : List (HloOp τ sig (Elt F)) :=
  [ binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]
/-- Operations 43 … 58 of @main: the first aggregation: gather by source, scale, add into the destination rows. -/
abbrev seg5 : List (HloOp τ sig (Elt F)) :=
  [ nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
/-- Operations 59 … 61 of @main: the first bias added. -/
abbrev seg6 : List (HloOp τ sig (Elt F)) :=
  [ unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)) ]
/-- Operations 62 … 64 of @main: the clipping at zero. -/
abbrev seg7 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]
/-- Operations 65 … 65 of @main: the second projection. -/
abbrev seg8 : List (HloOp τ sig (Elt F)) :=
  [ binary main_v49 main_arg5 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]
/-- Operations 66 … 81 of @main: the second aggregation. -/
abbrev seg9 : List (HloOp τ sig (Elt F)) :=
  [ nullary main_c_9 (constantI S_ 32 0#32),
    unary main_c_9 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x40 ![0, 1] bcast_S3300000x1_S3300000x40_0_1 : (⟨S3300000x1, .f32⟩ : BufTy).Contents (Elt F) → (⟨S3300000x40, .f32⟩ : BufTy).Contents (Elt F)),
    binary main_v57 main_v59 main_v60 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v61 (broadcastInDim S100000x40 ![] bcast_S_S100000x40 : (⟨S_, .f32⟩ : BufTy).Contents (Elt F) → (⟨S100000x40, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]
/-- Operations 82 … 84 of @main: the second bias added. -/
abbrev seg10 : List (HloOp τ sig (Elt F)) :=
  [ unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)) ]
/-- Operations 85 … 99 of @main: the row-wise log-softmax. -/
abbrev seg11 : List (HloOp τ sig (Elt F)) :=
  [ TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

set_option maxHeartbeats 4000000 in
/-- @main's operations are the eleven segments in order. -/
theorem ops_split : (ops : List (HloOp τ sig (Elt F))) =
    seg1 ++ (seg2 ++ (seg3 ++ (seg4 ++ (seg5 ++ (seg6 ++ (seg7 ++ (seg8 ++ (seg9 ++ (seg10 ++ seg11))))))))) := rfl

end Segments

variable (m : (ℓ : Loc nD τ sig) → Buf (Elt Ideal) ℓ) (c : Dev nD)

/-- The seven launch arguments on core `c`. -/
abbrev B0 : S100000x512.Idx → EReal := m ((c.tc : Thread nD τ).loc main_arg0)
abbrev B1 : S2x3200000.Idx → BitVec 32 := m ((c.tc : Thread nD τ).loc main_arg1)
abbrev B2 : S3200000.Idx → EReal := m ((c.tc : Thread nD τ).loc main_arg2)
abbrev B3 : S512x16.Idx → EReal := m ((c.tc : Thread nD τ).loc main_arg3)
abbrev B4 : S16.Idx → EReal := m ((c.tc : Thread nD τ).loc main_arg4)
abbrev B5 : S16x40.Idx → EReal := m ((c.tc : Thread nD τ).loc main_arg5)
abbrev B6 : S40.Idx → EReal := m ((c.tc : Thread nD τ).loc main_arg6)

/-- The buffer contents after each segment, from the launch contents. -/
def U0 : Valuation τ sig (Elt Ideal) := launchContents m c
def U1 : Valuation τ sig (Elt Ideal) := after seg1 (U0 m c)
def U2 : Valuation τ sig (Elt Ideal) := after seg2 (U1 m c)
def U3 : Valuation τ sig (Elt Ideal) := after seg3 (U2 m c)
def U4 : Valuation τ sig (Elt Ideal) := after seg4 (U3 m c)
def U5 : Valuation τ sig (Elt Ideal) := after seg5 (U4 m c)
def U6 : Valuation τ sig (Elt Ideal) := after seg6 (U5 m c)
def U7 : Valuation τ sig (Elt Ideal) := after seg7 (U6 m c)
def U8 : Valuation τ sig (Elt Ideal) := after seg8 (U7 m c)
def U9 : Valuation τ sig (Elt Ideal) := after seg9 (U8 m c)
def U10 : Valuation τ sig (Elt Ideal) := after seg10 (U9 m c)
def U11 : Valuation τ sig (Elt Ideal) := after seg11 (U10 m c)

/-! ## The operations that come from a called function

Each such operation moves its operands and its result between a buffer's own contents type and the tensor type the called
function states. Inside a group every value is written and read through the same typed reference, and that round trip is the
identity for any typed reference; at a group's inputs and at its result the single move is the identity because the buffer
is a literal one whose type computes to the stated type. -/

theorem rd_main_v13 (w : (⟨S100000, .i1⟩ : BufTy).Contents (Elt Ideal)) :
    (TRef.of (T := ⟨S100000, .i1⟩) main_v13 : TRef sig ⟨S100000, .i1⟩).ofBuf (Val := Elt Ideal) w = w := rfl
theorem rd_main_v14 (w : (⟨S100000, .f32⟩ : BufTy).Contents (Elt Ideal)) :
    (TRef.of (T := ⟨S100000, .f32⟩) main_v14 : TRef sig ⟨S100000, .f32⟩).ofBuf (Val := Elt Ideal) w = w := rfl
theorem rd_main_cst_2 (w : (⟨S_, .f32⟩ : BufTy).Contents (Elt Ideal)) :
    (TRef.of (T := ⟨S_, .f32⟩) main_cst_2 : TRef sig ⟨S_, .f32⟩).ofBuf (Val := Elt Ideal) w = w := rfl
theorem wr_main_v15 (w : (⟨S100000, .f32⟩ : BufTy).Contents (Elt Ideal)) :
    (TRef.of (T := ⟨S100000, .f32⟩) main_v15 : TRef sig ⟨S100000, .f32⟩).toBuf (Val := Elt Ideal) w = w := rfl
theorem rd_main_v48 (w : (⟨S100000x16, .f32⟩ : BufTy).Contents (Elt Ideal)) :
    (TRef.of (T := ⟨S100000x16, .f32⟩) main_v48 : TRef sig ⟨S100000x16, .f32⟩).ofBuf (Val := Elt Ideal) w = w := rfl
theorem wr_main_v49 (w : (⟨S100000x16, .f32⟩ : BufTy).Contents (Elt Ideal)) :
    (TRef.of (T := ⟨S100000x16, .f32⟩) main_v49 : TRef sig ⟨S100000x16, .f32⟩).toBuf (Val := Elt Ideal) w = w := rfl
theorem rd_main_v66 (w : (⟨S100000x40, .f32⟩ : BufTy).Contents (Elt Ideal)) :
    (TRef.of (T := ⟨S100000x40, .f32⟩) main_v66 : TRef sig ⟨S100000x40, .f32⟩).ofBuf (Val := Elt Ideal) w = w := rfl
theorem wr_main_v67 (w : (⟨S100000x40, .f32⟩ : BufTy).Contents (Elt Ideal)) :
    (TRef.of (T := ⟨S100000x40, .f32⟩) main_v67 : TRef sig ⟨S100000x40, .f32⟩).toBuf (Val := Elt Ideal) w = w := rfl

/-- The fold of all the operations is the eleven segments' folds in turn. -/
theorem fold_eq : after (ops (F := Ideal)) (launchContents m c) = U11 m c := by
  rw [ops_split, StableHlo.after_append, StableHlo.after_append, StableHlo.after_append, StableHlo.after_append,
    StableHlo.after_append, StableHlo.after_append, StableHlo.after_append, StableHlo.after_append, StableHlo.after_append,
    StableHlo.after_append]
  rfl

/-! ## At launch -/

theorem U0_arg0 : U0 m c (Proc.devRef .tc main_arg0) = B0 m c := rfl
theorem U0_arg1 : U0 m c (Proc.devRef .tc main_arg1) = B1 m c := rfl
theorem U0_arg2 : U0 m c (Proc.devRef .tc main_arg2) = B2 m c := rfl
theorem U0_arg3 : U0 m c (Proc.devRef .tc main_arg3) = B3 m c := rfl
theorem U0_arg4 : U0 m c (Proc.devRef .tc main_arg4) = B4 m c := rfl
theorem U0_arg5 : U0 m c (Proc.devRef .tc main_arg5) = B5 m c := rfl
theorem U0_arg6 : U0 m c (Proc.devRef .tc main_arg6) = B6 m c := rfl

/-! ## After segment 1: the index vectors, the weights, the degrees' positivity and inverse square roots -/

theorem U1_arg0 : U1 m c (Proc.devRef .tc main_arg0) = B0 m c := by
  refine Eq.trans ?_ (U0_arg0 m c)
  show after seg1 (U0 m c) (Proc.devRef .tc main_arg0) = _
  after_results <;> rfl
theorem U1_arg3 : U1 m c (Proc.devRef .tc main_arg3) = B3 m c := by
  refine Eq.trans ?_ (U0_arg3 m c)
  show after seg1 (U0 m c) (Proc.devRef .tc main_arg3) = _
  after_results <;> rfl
theorem U1_arg4 : U1 m c (Proc.devRef .tc main_arg4) = B4 m c := by
  refine Eq.trans ?_ (U0_arg4 m c)
  show after seg1 (U0 m c) (Proc.devRef .tc main_arg4) = _
  after_results <;> rfl
theorem U1_arg5 : U1 m c (Proc.devRef .tc main_arg5) = B5 m c := by
  refine Eq.trans ?_ (U0_arg5 m c)
  show after seg1 (U0 m c) (Proc.devRef .tc main_arg5) = _
  after_results <;> rfl
theorem U1_arg6 : U1 m c (Proc.devRef .tc main_arg6) = B6 m c := by
  refine Eq.trans ?_ (U0_arg6 m c)
  show after seg1 (U0 m c) (Proc.devRef .tc main_arg6) = _
  after_results <;> rfl
/-- The source indices with the self-loops appended. -/
theorem U1_src : U1 m c (Proc.devRef .tc main_v3) = val_main_v3 (F := Ideal) (B1 m c) := by
  show after seg1 (U0 m c) (Proc.devRef .tc main_v3) = _
  after_results
  rw [U0_arg1]
  rfl
/-- The destination indices with the self-loops appended. -/
theorem U1_dst : U1 m c (Proc.devRef .tc main_v6) = val_main_v6 (F := Ideal) (B1 m c) := by
  show after seg1 (U0 m c) (Proc.devRef .tc main_v6) = _
  after_results
  rw [U0_arg1]
  rfl
/-- The edge weights with the self-loops' ones appended. -/
theorem U1_wts : U1 m c (Proc.devRef .tc main_v8) = val_main_v8 (F := Ideal) (B2 m c) := by
  show after seg1 (U0 m c) (Proc.devRef .tc main_v8) = _
  after_results
  rw [U0_arg2]
  rfl
set_option maxHeartbeats 2000000 in
/-- Where the weighted in-degree is positive. -/
theorem U1_pos : U1 m c (Proc.devRef .tc main_v13) = val_main_v13 (F := Ideal) (B1 m c) (B2 m c) := by
  show after seg1 (U0 m c) (Proc.devRef .tc main_v13) = _
  after_results
  rw [U0_arg1, U0_arg2]
  rfl
set_option maxHeartbeats 2000000 in
/-- The inverse square root of the weighted in-degree. -/
theorem U1_rsq : U1 m c (Proc.devRef .tc main_v14) = val_main_v14 (F := Ideal) (B1 m c) (B2 m c) := by
  show after seg1 (U0 m c) (Proc.devRef .tc main_v14) = _
  after_results
  rw [U0_arg1, U0_arg2]
  rfl
theorem U1_zero : U1 m c (Proc.devRef .tc main_cst_2) = val_main_cst_2 (F := Ideal) := by
  show after seg1 (U0 m c) (Proc.devRef .tc main_cst_2) = _
  after_results <;> rfl

/-! ## After segment 2: the inverse square roots where the degree is positive -/

set_option maxHeartbeats 4000000 in
/-- The inverse square roots of the weighted in-degrees, zero where the degree is not positive. -/
theorem U2_dis : U2 m c (Proc.devRef .tc main_v15) = val_main_v15 (F := Ideal) (B1 m c) (B2 m c) := by
  show after seg2 (U1 m c) (Proc.devRef .tc main_v15) = _
  after_results
  simp only [Cert.Gcn.ofBuf_toBuf]
  rw [rd_main_v13, rd_main_v14, rd_main_cst_2, wr_main_v15, U1_pos, U1_rsq, U1_zero]
  rfl
theorem U2_src : U2 m c (Proc.devRef .tc main_v3) = val_main_v3 (F := Ideal) (B1 m c) := by
  refine Eq.trans ?_ (U1_src m c)
  show after seg2 (U1 m c) (Proc.devRef .tc main_v3) = _
  after_results <;> rfl
theorem U2_dst : U2 m c (Proc.devRef .tc main_v6) = val_main_v6 (F := Ideal) (B1 m c) := by
  refine Eq.trans ?_ (U1_dst m c)
  show after seg2 (U1 m c) (Proc.devRef .tc main_v6) = _
  after_results <;> rfl
theorem U2_wts : U2 m c (Proc.devRef .tc main_v8) = val_main_v8 (F := Ideal) (B2 m c) := by
  refine Eq.trans ?_ (U1_wts m c)
  show after seg2 (U1 m c) (Proc.devRef .tc main_v8) = _
  after_results <;> rfl
theorem U2_arg0 : U2 m c (Proc.devRef .tc main_arg0) = B0 m c := by
  refine Eq.trans ?_ (U1_arg0 m c)
  show after seg2 (U1 m c) (Proc.devRef .tc main_arg0) = _
  after_results <;> rfl
theorem U2_arg3 : U2 m c (Proc.devRef .tc main_arg3) = B3 m c := by
  refine Eq.trans ?_ (U1_arg3 m c)
  show after seg2 (U1 m c) (Proc.devRef .tc main_arg3) = _
  after_results <;> rfl
theorem U2_arg4 : U2 m c (Proc.devRef .tc main_arg4) = B4 m c := by
  refine Eq.trans ?_ (U1_arg4 m c)
  show after seg2 (U1 m c) (Proc.devRef .tc main_arg4) = _
  after_results <;> rfl
theorem U2_arg5 : U2 m c (Proc.devRef .tc main_arg5) = B5 m c := by
  refine Eq.trans ?_ (U1_arg5 m c)
  show after seg2 (U1 m c) (Proc.devRef .tc main_arg5) = _
  after_results <;> rfl
theorem U2_arg6 : U2 m c (Proc.devRef .tc main_arg6) = B6 m c := by
  refine Eq.trans ?_ (U1_arg6 m c)
  show after seg2 (U1 m c) (Proc.devRef .tc main_arg6) = _
  after_results <;> rfl

/-! ## After segment 3: the normalisation -/

set_option maxHeartbeats 4000000 in
/-- The symmetric normalisation of the edge weights. -/
theorem U3_norm : U3 m c (Proc.devRef .tc main_v31) = val_main_v31 (F := Ideal) (B1 m c) (B2 m c) := by
  show after seg3 (U2 m c) (Proc.devRef .tc main_v31) = _
  after_results
  rw [U2_dis, U2_src, U2_dst, U2_wts]
  rfl
theorem U3_src : U3 m c (Proc.devRef .tc main_v3) = val_main_v3 (F := Ideal) (B1 m c) := by
  refine Eq.trans ?_ (U2_src m c)
  show after seg3 (U2 m c) (Proc.devRef .tc main_v3) = _
  after_results <;> rfl
theorem U3_dst : U3 m c (Proc.devRef .tc main_v6) = val_main_v6 (F := Ideal) (B1 m c) := by
  refine Eq.trans ?_ (U2_dst m c)
  show after seg3 (U2 m c) (Proc.devRef .tc main_v6) = _
  after_results <;> rfl
theorem U3_arg0 : U3 m c (Proc.devRef .tc main_arg0) = B0 m c := by
  refine Eq.trans ?_ (U2_arg0 m c)
  show after seg3 (U2 m c) (Proc.devRef .tc main_arg0) = _
  after_results <;> rfl
theorem U3_arg3 : U3 m c (Proc.devRef .tc main_arg3) = B3 m c := by
  refine Eq.trans ?_ (U2_arg3 m c)
  show after seg3 (U2 m c) (Proc.devRef .tc main_arg3) = _
  after_results <;> rfl
theorem U3_arg4 : U3 m c (Proc.devRef .tc main_arg4) = B4 m c := by
  refine Eq.trans ?_ (U2_arg4 m c)
  show after seg3 (U2 m c) (Proc.devRef .tc main_arg4) = _
  after_results <;> rfl
theorem U3_arg5 : U3 m c (Proc.devRef .tc main_arg5) = B5 m c := by
  refine Eq.trans ?_ (U2_arg5 m c)
  show after seg3 (U2 m c) (Proc.devRef .tc main_arg5) = _
  after_results <;> rfl
theorem U3_arg6 : U3 m c (Proc.devRef .tc main_arg6) = B6 m c := by
  refine Eq.trans ?_ (U2_arg6 m c)
  show after seg3 (U2 m c) (Proc.devRef .tc main_arg6) = _
  after_results <;> rfl

/-! ## After segment 4: the first projection -/

/-- The node features projected to sixteen columns. -/
theorem U4_proj : U4 m c (Proc.devRef .tc main_v32) = val_main_v32 (F := Ideal) (B0 m c) (B3 m c) := by
  show after seg4 (U3 m c) (Proc.devRef .tc main_v32) = _
  after_results
  rw [U3_arg0, U3_arg3]
  rfl
theorem U4_src : U4 m c (Proc.devRef .tc main_v3) = val_main_v3 (F := Ideal) (B1 m c) := by
  refine Eq.trans ?_ (U3_src m c)
  show after seg4 (U3 m c) (Proc.devRef .tc main_v3) = _
  after_results <;> rfl
theorem U4_dst : U4 m c (Proc.devRef .tc main_v6) = val_main_v6 (F := Ideal) (B1 m c) := by
  refine Eq.trans ?_ (U3_dst m c)
  show after seg4 (U3 m c) (Proc.devRef .tc main_v6) = _
  after_results <;> rfl
theorem U4_norm : U4 m c (Proc.devRef .tc main_v31) = val_main_v31 (F := Ideal) (B1 m c) (B2 m c) := by
  refine Eq.trans ?_ (U3_norm m c)
  show after seg4 (U3 m c) (Proc.devRef .tc main_v31) = _
  after_results <;> rfl
theorem U4_arg4 : U4 m c (Proc.devRef .tc main_arg4) = B4 m c := by
  refine Eq.trans ?_ (U3_arg4 m c)
  show after seg4 (U3 m c) (Proc.devRef .tc main_arg4) = _
  after_results <;> rfl
theorem U4_arg5 : U4 m c (Proc.devRef .tc main_arg5) = B5 m c := by
  refine Eq.trans ?_ (U3_arg5 m c)
  show after seg4 (U3 m c) (Proc.devRef .tc main_arg5) = _
  after_results <;> rfl
theorem U4_arg6 : U4 m c (Proc.devRef .tc main_arg6) = B6 m c := by
  refine Eq.trans ?_ (U3_arg6 m c)
  show after seg4 (U3 m c) (Proc.devRef .tc main_arg6) = _
  after_results <;> rfl

/-! ## After segment 5: the first aggregation -/

set_option maxHeartbeats 4000000 in
/-- The projected rows gathered by source, scaled and added into the destination rows. -/
theorem U5_agg : U5 m c (Proc.devRef .tc main_v45) = val_main_v45 (F := Ideal) (B0 m c) (B1 m c) (B2 m c) (B3 m c) := by
  show after seg5 (U4 m c) (Proc.devRef .tc main_v45) = _
  after_results
  rw [U4_proj, U4_src, U4_dst, U4_norm]
  rfl
theorem U5_src : U5 m c (Proc.devRef .tc main_v3) = val_main_v3 (F := Ideal) (B1 m c) := by
  refine Eq.trans ?_ (U4_src m c)
  show after seg5 (U4 m c) (Proc.devRef .tc main_v3) = _
  after_results <;> rfl
theorem U5_dst : U5 m c (Proc.devRef .tc main_v6) = val_main_v6 (F := Ideal) (B1 m c) := by
  refine Eq.trans ?_ (U4_dst m c)
  show after seg5 (U4 m c) (Proc.devRef .tc main_v6) = _
  after_results <;> rfl
theorem U5_norm : U5 m c (Proc.devRef .tc main_v31) = val_main_v31 (F := Ideal) (B1 m c) (B2 m c) := by
  refine Eq.trans ?_ (U4_norm m c)
  show after seg5 (U4 m c) (Proc.devRef .tc main_v31) = _
  after_results <;> rfl
theorem U5_arg4 : U5 m c (Proc.devRef .tc main_arg4) = B4 m c := by
  refine Eq.trans ?_ (U4_arg4 m c)
  show after seg5 (U4 m c) (Proc.devRef .tc main_arg4) = _
  after_results <;> rfl
theorem U5_arg5 : U5 m c (Proc.devRef .tc main_arg5) = B5 m c := by
  refine Eq.trans ?_ (U4_arg5 m c)
  show after seg5 (U4 m c) (Proc.devRef .tc main_arg5) = _
  after_results <;> rfl
theorem U5_arg6 : U5 m c (Proc.devRef .tc main_arg6) = B6 m c := by
  refine Eq.trans ?_ (U4_arg6 m c)
  show after seg5 (U4 m c) (Proc.devRef .tc main_arg6) = _
  after_results <;> rfl

/-! ## After segment 6: the first bias -/

/-- The aggregated rows plus the first bias. -/
theorem U6_pre : U6 m c (Proc.devRef .tc main_v48) = val_main_v48 (F := Ideal) (B0 m c) (B1 m c) (B2 m c) (B3 m c) (B4 m c) := by
  show after seg6 (U5 m c) (Proc.devRef .tc main_v48) = _
  after_results
  rw [U5_agg, U5_arg4]
  rfl
theorem U6_src : U6 m c (Proc.devRef .tc main_v3) = val_main_v3 (F := Ideal) (B1 m c) := by
  refine Eq.trans ?_ (U5_src m c)
  show after seg6 (U5 m c) (Proc.devRef .tc main_v3) = _
  after_results <;> rfl
theorem U6_dst : U6 m c (Proc.devRef .tc main_v6) = val_main_v6 (F := Ideal) (B1 m c) := by
  refine Eq.trans ?_ (U5_dst m c)
  show after seg6 (U5 m c) (Proc.devRef .tc main_v6) = _
  after_results <;> rfl
theorem U6_norm : U6 m c (Proc.devRef .tc main_v31) = val_main_v31 (F := Ideal) (B1 m c) (B2 m c) := by
  refine Eq.trans ?_ (U5_norm m c)
  show after seg6 (U5 m c) (Proc.devRef .tc main_v31) = _
  after_results <;> rfl
theorem U6_arg5 : U6 m c (Proc.devRef .tc main_arg5) = B5 m c := by
  refine Eq.trans ?_ (U5_arg5 m c)
  show after seg6 (U5 m c) (Proc.devRef .tc main_arg5) = _
  after_results <;> rfl
theorem U6_arg6 : U6 m c (Proc.devRef .tc main_arg6) = B6 m c := by
  refine Eq.trans ?_ (U5_arg6 m c)
  show after seg6 (U5 m c) (Proc.devRef .tc main_arg6) = _
  after_results <;> rfl

/-! ## After segment 7: the clipping at zero -/

set_option maxHeartbeats 4000000 in
/-- The hidden layer: clipped below at zero. -/
theorem U7_hidden : U7 m c (Proc.devRef .tc main_v49) = val_main_v49 (F := Ideal) (B0 m c) (B1 m c) (B2 m c) (B3 m c) (B4 m c) := by
  show after seg7 (U6 m c) (Proc.devRef .tc main_v49) = _
  after_results
  simp only [Cert.Gcn.ofBuf_toBuf]
  rw [rd_main_v48, wr_main_v49, U6_pre]
  rfl
theorem U7_src : U7 m c (Proc.devRef .tc main_v3) = val_main_v3 (F := Ideal) (B1 m c) := by
  refine Eq.trans ?_ (U6_src m c)
  show after seg7 (U6 m c) (Proc.devRef .tc main_v3) = _
  after_results <;> rfl
theorem U7_dst : U7 m c (Proc.devRef .tc main_v6) = val_main_v6 (F := Ideal) (B1 m c) := by
  refine Eq.trans ?_ (U6_dst m c)
  show after seg7 (U6 m c) (Proc.devRef .tc main_v6) = _
  after_results <;> rfl
theorem U7_norm : U7 m c (Proc.devRef .tc main_v31) = val_main_v31 (F := Ideal) (B1 m c) (B2 m c) := by
  refine Eq.trans ?_ (U6_norm m c)
  show after seg7 (U6 m c) (Proc.devRef .tc main_v31) = _
  after_results <;> rfl
theorem U7_arg5 : U7 m c (Proc.devRef .tc main_arg5) = B5 m c := by
  refine Eq.trans ?_ (U6_arg5 m c)
  show after seg7 (U6 m c) (Proc.devRef .tc main_arg5) = _
  after_results <;> rfl
theorem U7_arg6 : U7 m c (Proc.devRef .tc main_arg6) = B6 m c := by
  refine Eq.trans ?_ (U6_arg6 m c)
  show after seg7 (U6 m c) (Proc.devRef .tc main_arg6) = _
  after_results <;> rfl

/-! ## After segment 8: the second projection -/

/-- The hidden layer projected to forty columns. -/
theorem U8_proj2 : U8 m c (Proc.devRef .tc main_v50) = val_main_v50 (F := Ideal) (B0 m c) (B1 m c) (B2 m c) (B3 m c) (B4 m c) (B5 m c) := by
  show after seg8 (U7 m c) (Proc.devRef .tc main_v50) = _
  after_results
  rw [U7_hidden, U7_arg5]
  rfl
theorem U8_src : U8 m c (Proc.devRef .tc main_v3) = val_main_v3 (F := Ideal) (B1 m c) := by
  refine Eq.trans ?_ (U7_src m c)
  show after seg8 (U7 m c) (Proc.devRef .tc main_v3) = _
  after_results <;> rfl
theorem U8_dst : U8 m c (Proc.devRef .tc main_v6) = val_main_v6 (F := Ideal) (B1 m c) := by
  refine Eq.trans ?_ (U7_dst m c)
  show after seg8 (U7 m c) (Proc.devRef .tc main_v6) = _
  after_results <;> rfl
theorem U8_norm : U8 m c (Proc.devRef .tc main_v31) = val_main_v31 (F := Ideal) (B1 m c) (B2 m c) := by
  refine Eq.trans ?_ (U7_norm m c)
  show after seg8 (U7 m c) (Proc.devRef .tc main_v31) = _
  after_results <;> rfl
theorem U8_arg6 : U8 m c (Proc.devRef .tc main_arg6) = B6 m c := by
  refine Eq.trans ?_ (U7_arg6 m c)
  show after seg8 (U7 m c) (Proc.devRef .tc main_arg6) = _
  after_results <;> rfl

/-! ## After segment 9: the second aggregation -/

set_option maxHeartbeats 4000000 in
/-- The projected rows gathered by source, scaled and added into the destination rows. -/
theorem U9_agg2 : U9 m c (Proc.devRef .tc main_v63) = val_main_v63 (F := Ideal) (B0 m c) (B1 m c) (B2 m c) (B3 m c) (B4 m c) (B5 m c) := by
  show after seg9 (U8 m c) (Proc.devRef .tc main_v63) = _
  after_results
  rw [U8_proj2, U8_src, U8_dst, U8_norm]
  rfl
theorem U9_arg6 : U9 m c (Proc.devRef .tc main_arg6) = B6 m c := by
  refine Eq.trans ?_ (U8_arg6 m c)
  show after seg9 (U8 m c) (Proc.devRef .tc main_arg6) = _
  after_results <;> rfl

/-! ## After segment 10: the second bias -/

/-- The aggregated rows plus the second bias. -/
theorem U10_logits : U10 m c (Proc.devRef .tc main_v66) = val_main_v66 (F := Ideal) (B0 m c) (B1 m c) (B2 m c) (B3 m c) (B4 m c) (B5 m c) (B6 m c) := by
  show after seg10 (U9 m c) (Proc.devRef .tc main_v66) = _
  after_results
  rw [U9_agg2, U9_arg6]
  rfl

/-! ## After segment 11: the row-wise log-softmax -/

set_option maxHeartbeats 4000000 in
/-- The result buffer at the end: the last stage of the launch arguments. -/
theorem U11_result : U11 m c (Proc.devRef .tc main_v67) = val_main_v67 (F := Ideal) (B0 m c) (B1 m c) (B2 m c) (B3 m c) (B4 m c) (B5 m c) (B6 m c) := by
  show after seg11 (U10 m c) (Proc.devRef .tc main_v67) = _
  after_results
  simp only [Cert.Gcn.ofBuf_toBuf]
  rw [rd_main_v66, wr_main_v67, U10_logits]
  rfl

/-! ## The run, read -/

set_option maxHeartbeats 4000000 in
/-- Every weakly fair execution of the reference terminates with its result at the last stage of the launch arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = val_main_v67 (F := Ideal) (B0 m c) (B1 m c) (B2 m c) (B3 m c) (B4 m c) (B5 m c) (B6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans ((congrFun (fold_eq m c) _).trans (U11_result m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_folded m ρ)

end Cert.ReferenceIdeal.Stages

end
-- ==== Proof.lean ====
/-
  The certificate of a two-layer graph convolution: a program of four pipelined kernel regions among host operations
  against its plain reference, equal over the extended reals.

  Both programs add self-loops to the edge list, take the weighted in-degrees, normalise every edge weight by the inverse
  square roots of its two end nodes' degrees, and then apply two layers: project the node features, gather the projected
  rows by source node, scale them by the normalised weights and add them into the destination rows, add a bias; between the
  layers clip at zero, after the second take the row-wise log-softmax. The host parts (index vectors, degrees, normalisation,
  gather, scale, scatter-add) are the same operations in both programs. The kernel program computes the two projections, the
  bias with clipping, and the bias with log-softmax in regions that work on blocks of 5000 rows; on the extended reals a block's
  product is the whole product's block (narrowing the operands to a shorter float format is the identity, and a product into
  a zero accumulator is the product), the bias and clipping are entrywise, and the log-softmax of a row depends on that row
  alone, with the row maximum a fold of `max` from `−∞` and the sum of exponentials a sum from zero in both programs. So the
  two results are one function of the arguments, entry by entry, with no use of the inputs' finiteness.

  The modules: Layers (the layer functions and one row's log-softmax), MatmulAt and PointwiseAt (each kernel block's value
  and each layer function read at an index), Region0 … Region3 (each region's result array is the layer function of its
  operand arrays), KernelRun (the kernel program's run with every buffer's final contents named), Boundaries (the result
  buffer's final contents as a function of the arguments), RefRun, RefRead and RefStages (the reference's run, its stages,
  and its result as the same function of the arguments).
-/
import proofs.«171927_j27865747816552_1_alg».proof.Defs
import proofs.«171927_j27865747816552_1_alg».proof.Proof.Gen.Kernel
import proofs.«171927_j27865747816552_1_alg».proof.Proof.Gen.Kernel.Skeleton
import proofs.«171927_j27865747816552_1_alg».proof.Proof.Gen.Kernel.Launch
import proofs.«171927_j27865747816552_1_alg».proof.Proof.Gen.Kernel.Points
import proofs.«171927_j27865747816552_1_alg».proof.Proof.Gen.Kernel.Frame
import proofs.«171927_j27865747816552_1_alg».proof.Proof.Gen.KernelIdeal
import proofs.«171927_j27865747816552_1_alg».proof.Proof.Gen.KernelIdeal.Skeleton
import proofs.«171927_j27865747816552_1_alg».proof.Proof.Gen.KernelIdeal.Launch
import proofs.«171927_j27865747816552_1_alg».proof.Proof.Gen.KernelIdeal.Points
import proofs.«171927_j27865747816552_1_alg».proof.Proof.Gen.KernelIdeal.Frame
import proofs.«171927_j27865747816552_1_alg».proof.Proof.Gen.ReferenceIdeal
import proofs.«171927_j27865747816552_1_alg».proof.Proof.Gen.Pre_finite_inputs
import proofs.«171927_j27865747816552_1_alg».proof.Proof.KernelRun
import proofs.«171927_j27865747816552_1_alg».proof.Proof.Boundaries
import proofs.«171927_j27865747816552_1_alg».proof.Proof.RefStages
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Stages.run m ρ)

/-- The idealization rewrote nothing. -/
theorem preserves : Cert.preserves_Kernel_KernelIdeal := trivial

/-- From memories that agree on the arguments, both idealized programs end with their result at the reference's last
    stage of the arguments: the kernel program's last boundary contents are that stage, and so is the reference's fold. -/
theorem algebraic : Cert.algebraic_KernelIdeal_ReferenceIdeal := by
  intro m ρ m' ρ' _ hagree
  refine ⟨fun c => Cert.ReferenceIdeal.ReadP.val_main_v67 (F := Ideal) (Cert.KernelIdeal.Whole.A0 m c)
      (Cert.KernelIdeal.Whole.A1 m c) (Cert.KernelIdeal.Whole.A2 m c) (Cert.KernelIdeal.Whole.A3 m c)
      (Cert.KernelIdeal.Whole.A4 m c) (Cert.KernelIdeal.Whole.A5 m c) (Cert.KernelIdeal.Whole.A6 m c), ?_, ?_⟩
  · exact (θ_run Cert.KernelIdeal.defs _ _).mono
      (fun _ h c => ⟨(h c).1.trans (Cert.KernelIdeal.Whole.W9_result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Stages.run m' ρ')
    obtain ⟨e0, e1, e2, e3, e4, e5, e6⟩ := hagree c
    show Cert.ReferenceIdeal.ReadP.val_main_v67 (F := Ideal) (Cert.ReferenceIdeal.Stages.B0 m' c)
        (Cert.ReferenceIdeal.Stages.B1 m' c) (Cert.ReferenceIdeal.Stages.B2 m' c) (Cert.ReferenceIdeal.Stages.B3 m' c)
        (Cert.ReferenceIdeal.Stages.B4 m' c) (Cert.ReferenceIdeal.Stages.B5 m' c) (Cert.ReferenceIdeal.Stages.B6 m' c) = _
    unfold Cert.ReferenceIdeal.Stages.B0 Cert.ReferenceIdeal.Stages.B1 Cert.ReferenceIdeal.Stages.B2
      Cert.ReferenceIdeal.Stages.B3 Cert.ReferenceIdeal.Stages.B4 Cert.ReferenceIdeal.Stages.B5 Cert.ReferenceIdeal.Stages.B6
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
